-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x4096x1 : Shape := ⟨3, ![4, 4096, 1]⟩
abbrev S1x512x3 : Shape := ⟨3, ![1, 512, 3]⟩
abbrev S1x4096x3 : Shape := ⟨3, ![1, 4096, 3]⟩
abbrev S1x512x1 : Shape := ⟨3, ![1, 512, 1]⟩
abbrev S1x4096x1 : Shape := ⟨3, ![1, 4096, 1]⟩
abbrev S512x3 : Shape := ⟨2, ![512, 3]⟩
abbrev S4096x3 : Shape := ⟨2, ![4096, 3]⟩
abbrev S512 : Shape := ⟨1, ![512]⟩
abbrev S512x1 : Shape := ⟨2, ![512, 1]⟩
abbrev S4096 : Shape := ⟨1, ![4096]⟩
abbrev S3x4096 : Shape := ⟨2, ![3, 4096]⟩
abbrev S512x4096 : Shape := ⟨2, ![512, 4096]⟩
abbrev S1x4096 : Shape := ⟨2, ![1, 4096]⟩
abbrev S4x4096 : Shape := ⟨2, ![4, 4096]⟩
abbrev S_ : Shape := ⟨0, ![]⟩
abbrev S4 : Shape := ⟨1, ![4]⟩

abbrev nBuf : Space → Nat
  | .hbm => 21
  | .vmem => 8
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x1, .f32⟩
  | .hbm, ⟨3, _⟩ => ⟨S4x4096x1, .f32⟩
  | .hbm, ⟨4, _⟩ => ⟨S4x4096, .f32⟩
  | .hbm, ⟨5, _⟩ => ⟨S_, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S4x4096, .f32⟩
  | .hbm, ⟨11, _⟩ => ⟨S_, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S4, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x4096x3, .f32⟩
  | .local _ .vmem, ⟨3, _⟩ => ⟨S1x4096x3, .f32⟩
  | .local _ .vmem, ⟨4, _⟩ => ⟨S1x512x1, .f32⟩
  | .local _ .vmem, ⟨5, _⟩ => ⟨S1x512x1, .f32⟩
  | .local _ .vmem, ⟨6, _⟩ => ⟨S1x4096x1, .f32⟩
  | .local _ .vmem, ⟨7, _⟩ => ⟨S1x4096x1, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v22 : BitVec 1 := Scalar.cmpi .eq arg1 c0_i32
  let v23 : BitVec 32 := Scalar.extui v22
  let c0_i32_13 : BitVec 32 := 0#32
  let v24 : BitVec 1 := Scalar.cmpi .ne v23 c0_i32_13
  v24

def k0_cond2 (i : grid0.Coords) : BitVec 1 :=
  let arg1 : BitVec 32 := BitVec.ofNat 32 (i 1).val
  let c0_i32_14 : BitVec 32 := 0#32
  let v25 : BitVec 1 := Scalar.cmpi .ne arg1 c0_i32_14
  let v26 : BitVec 32 := Scalar.extui v25
  let c0_i32_15 : BitVec 32 := 0#32
  let v27 : BitVec 1 := Scalar.cmpi .ne v26 c0_i32_15
  v27

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  reduces_S512x3_S512 : S512x3.Reduces [1] S512
  shapeCasts_S512_S512x1 : S512.ShapeCasts S512x1
  reduces_S4096x3_S4096 : S4096x3.Reduces [1] S4096
  transposes_S4096x3_p1_0_S3x4096 : S4096x3.Transposes [1, 0] S3x4096
  shapeCasts_S4096_S1x4096 : S4096.ShapeCasts S1x4096
  broadcasts_S512x1_S512x4096 : S512x1.Broadcasts S512x4096
  broadcasts_S1x4096_S512x4096 : S1x4096.Broadcasts S512x4096
  reduces_S512x4096_S512 : S512x4096.Reduces [1] S512
  shapeCasts_S512_S1x512x1 : S512.ShapeCasts S1x512x1
  inb_S1x512x1_S1x512x1_0_0_0 : ∀ a, (![0, 0, 0] : Fin 3 → Nat) a + S1x512x1.size a ≤ S1x512x1.size a
  h_S1x512x1 : 0 < S1x512x1.numel
  reduces_S512x4096_S4096 : S512x4096.Reduces [0] S4096
  shapeCasts_S4096_S1x4096x1 : S4096.ShapeCasts S1x4096x1
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S1x4096x1 : S1x4096x1.ShapeCasts S1x4096x1
  shapeCasts_S4x4096x1_S4x4096 : S4x4096x1.ShapeCasts S4x4096
  reducesTo_S4x4096_S4_d1 : S4x4096.ReducesTo [1] S4
  h_S_ : 0 < S_.numel
  bcast_S_S4 : S_.BroadcastsInDim S4 (![] : Fin 0 → Fin S4.rank)
  reducesTo_S4_S_d0 : S4.ReducesTo [0] S_
  dot_S512x3_S3x4096_S512x4096_1_0_0_1_n_n_wf : DotDims.WF S512x3 S3x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S4x4096x3.size a
  hwx0_0 : ∀ i : grid0.Coords, EltTy.bits .f32 = 32 ∨ (Rect.block (s := S4x4096x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S4x4096x3.size a
  hwx0_1 : ∀ i : grid0.Coords, EltTy.bits .f32 = 32 ∨ (Rect.block (s := S4x4096x3) S1x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S4x4096x1.size a
  hwx0_2 : ∀ i : grid0.Coords, EltTy.bits .f32 = 32 ∨ (Rect.block (s := S4x4096x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x1.size a ≤ S4x4096x1.size a
  hwx0_3 : ∀ i : grid0.Coords, EltTy.bits .f32 = 32 ∨ (Rect.block (s := S4x4096x1) S1x4096x1.size (cc0_transform_3 i) (hinb0_3 i)).WholeWords (EltTy.packing .f32)

variable [Facts₀]

def dot_S512x3_S3x4096_S512x4096_1_0_0_1_n_n : DotDims S512x3 S3x4096 S512x4096 where
  lhsContracting := [1]
  rhsContracting := [0]
  lhsNonContracting := [0]
  rhsNonContracting := [1]
  lhsBatch := []
  rhsBatch := []
  wf := dot_S512x3_S3x4096_S512x4096_1_0_0_1_n_n_wf

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x4096x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩
abbrev S4 : Shape := ⟨1, ![4]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x4096x4096, .f32⟩
  | .hbm, ⟨9, _⟩ => ⟨S4x4096x1, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096, .f32⟩
  | .hbm, ⟨20, _⟩ => ⟨S_, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S_, .f32⟩
  | .hbm, ⟨26, _⟩ => ⟨S4x4096, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096_S4_d1 : S4x4096.ReducesTo [1] S4
  bcast_S_S4 : S_.BroadcastsInDim S4 (![] : Fin 0 → Fin S4.rank)
  reducesTo_S4x4096x4096_S4x4096_d1 : S4x4096x4096.ReducesTo [1] S4x4096
  reducesTo_S4_S_d0 : S4.ReducesTo [0] S_
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.BodyBits.lean ====
/-
  The kernel body's run and the pipeline's frame for this program.

  The grid is 4 × 8: point `t` is batch `t / 8`, tile `t % 8` of 512 source points.  At every point the body
  loads its source tile and the batch's whole target cloud, stores the tile's row minima into the first output's
  buffer, and then either (first tile of a batch, `t % 8 = 0`) stores the tile's column minima into the second
  output's buffer, or (a later tile) loads that buffer, joins it with the tile's column minima by `min` and stores
  it back.  Exactly one of the two conditionals is taken at every point, so the second output's buffer is never
  left idle; it is written back only after the batch's last tile (`t % 8 = 7`), so at a later tile it still holds
  what the tile before left.  From these two cases the proof data names what each buffer holds after each point,
  the body obligation follows case by case, and the library's frame run gives termination, no fault, and the
  argument arrays unchanged.
-/
import proofs.«124588_j30124900614424_1_alg».proof.Proof.Gen.Kernel.Frame
import proofs.«124588_j30124900614424_1_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditionals over the grid -/

/-- The first conditional (the reset) is taken exactly at a batch's first tile. -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- The second conditional (the join) is taken exactly at the later tiles. -/
theorem hcond2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)
/-- One of the two is taken at every grid coordinate: the second output is never idle. -/
theorem live3 : ∀ i : grid0.Coords, cfg0.idle 3 i = false :=
  (by decide +kernel : ∀ i : grid0.Coords, (!(k0_cond1 i == 1#1) && !(k0_cond2 i == 1#1)) = false)

/-- One staging buffer of each output window, through which its contents are stated. -/
abbrev VO2 : View sig .tc .vmem S1x512x1 .f32 := (Memref.whole cc0_stg2_0 : Memref sig .tc .vmem S1x512x1 .f32).view
abbrev VO3 : View sig .tc .vmem S1x4096x1 .f32 := (Memref.whole cc0_stg3_0 : Memref sig .tc .vmem S1x4096x1 .f32).view
/-- Each window's current staging memref at point `t`, as the pipeline passes it, and its wholeness. -/
abbrev ms0 (t : Fin cfg0.N) : Memref sig .tc .vmem S1x512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x4096x1 .f32 := win0_3.stage (cfg0.slots t 3)
abbrev hs3 (t : Fin cfg0.N) : (ms3 t).IsWhole := hstage0_3 ((cfg0.slots t 3).cast nbuf0_3)

/-! ## The body's run in each case -/

set_option maxHeartbeats 1000000 in
/-- FIRST TILE (reset taken, join not): on whole memrefs, the inputs at their contents and the outputs at anything, the
    body runs to a state holding the inputs as they were and each output's buffer with the pieces its stores wrote
    (the pieces are found by the run). -/
noncomputable def runFirst (c : Dev nD) (i : grid0.Coords)
    (arg2 : Memref sig .tc .vmem S1x512x3 .f32) (harg2 : arg2.IsWhole) (arg3 : Memref sig .tc .vmem S1x4096x3 .f32) (harg3 : arg3.IsWhole)
    (arg4 : Memref sig .tc .vmem S1x512x1 .f32) (harg4 : arg4.IsWhole) (arg5 : Memref sig .tc .vmem S1x4096x1 .f32) (harg5 : arg5.IsWhole)
    (hc1 : k0_cond1 i = 1#1) (hc2 : ¬ k0_cond2 i = 1#1)
    (x0 : Vec F S1x512x3 .f32) (x1 : Vec F S1x4096x3 .f32) :
    Σ' (L2 : List (View.Piece (Elt F) S1x512x1 .f32)), { L3 : List (View.Piece (Elt F) S1x4096x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

set_option maxHeartbeats 1000000 in
/-- LATER TILE (reset not taken, join taken): the same, the second output's buffer now at the running contents `xo3`
    the tile before left, which the body loads before it stores. -/
noncomputable def runLater (c : Dev nD) (i : grid0.Coords)
    (arg2 : Memref sig .tc .vmem S1x512x3 .f32) (harg2 : arg2.IsWhole) (arg3 : Memref sig .tc .vmem S1x4096x3 .f32) (harg3 : arg3.IsWhole)
    (arg4 : Memref sig .tc .vmem S1x512x1 .f32) (harg4 : arg4.IsWhole) (arg5 : Memref sig .tc .vmem S1x4096x1 .f32) (harg5 : arg5.IsWhole)
    (hc1 : ¬ k0_cond1 i = 1#1) (hc2 : k0_cond2 i = 1#1)
    (x0 : Vec F S1x512x3 .f32) (x1 : Vec F S1x4096x3 .f32) (xo3 : Vec F S1x4096x1 .f32) :
    Σ' (L2 : List (View.Piece (Elt F) S1x512x1 .f32)), { L3 : List (View.Piece (Elt F) S1x4096x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

/-! ## What each output's buffer holds after the body, case by case -/

theorem coverFirst_2 (c : Dev nD) (i : grid0.Coords)
    (arg2 : Memref sig .tc .vmem S1x512x3 .f32) (harg2 : arg2.IsWhole) (arg3 : Memref sig .tc .vmem S1x4096x3 .f32) (harg3 : arg3.IsWhole)
    (arg4 : Memref sig .tc .vmem S1x512x1 .f32) (harg4 : arg4.IsWhole) (arg5 : Memref sig .tc .vmem S1x4096x1 .f32) (harg5 : arg5.IsWhole)
    (hc1 : k0_cond1 i = 1#1) (hc2 : ¬ k0_cond2 i = 1#1)
    (x0 : Vec F S1x512x3 .f32) (x1 : Vec F S1x4096x3 .f32) (y : S1x512x1.Idx) :
    ∃ pc ∈ (runFirst c i arg2 harg2 arg3 harg3 arg4 harg4 arg5 harg5 hc1 hc2 x0 x1).1, y ∈ pc.1.set :=
  View.cover_of_tiledL (runFirst c i arg2 harg2 arg3 harg3 arg4 harg4 arg5 harg5 hc1 hc2 x0 x1).1 S1x512x1.size (by sl_kernel_rfl) y

theorem coverFirst_3 (c : Dev nD) (i : grid0.Coords)
    (arg2 : Memref sig .tc .vmem S1x512x3 .f32) (harg2 : arg2.IsWhole) (arg3 : Memref sig .tc .vmem S1x4096x3 .f32) (harg3 : arg3.IsWhole)
    (arg4 : Memref sig .tc .vmem S1x512x1 .f32) (harg4 : arg4.IsWhole) (arg5 : Memref sig .tc .vmem S1x4096x1 .f32) (harg5 : arg5.IsWhole)
    (hc1 : k0_cond1 i = 1#1) (hc2 : ¬ k0_cond2 i = 1#1)
    (x0 : Vec F S1x512x3 .f32) (x1 : Vec F S1x4096x3 .f32) (y : S1x4096x1.Idx) :
    ∃ pc ∈ (runFirst c i arg2 harg2 arg3 harg3 arg4 harg4 arg5 harg5 hc1 hc2 x0 x1).2.1, y ∈ pc.1.set :=
  View.cover_of_tiledL (runFirst c i arg2 harg2 arg3 harg3 arg4 harg4 arg5 harg5 hc1 hc2 x0 x1).2.1 S1x4096x1.size (by sl_kernel_rfl) y

theorem coverLater_2 (c : Dev nD) (i : grid0.Coords)
    (arg2 : Memref sig .tc .vmem S1x512x3 .f32) (harg2 : arg2.IsWhole) (arg3 : Memref sig .tc .vmem S1x4096x3 .f32) (harg3 : arg3.IsWhole)
    (arg4 : Memref sig .tc .vmem S1x512x1 .f32) (harg4 : arg4.IsWhole) (arg5 : Memref sig .tc .vmem S1x4096x1 .f32) (harg5 : arg5.IsWhole)
    (hc1 : ¬ k0_cond1 i = 1#1) (hc2 : k0_cond2 i = 1#1)
    (x0 : Vec F S1x512x3 .f32) (x1 : Vec F S1x4096x3 .f32) (xo3 : Vec F S1x4096x1 .f32) (y : S1x512x1.Idx) :
    ∃ pc ∈ (runLater c i arg2 harg2 arg3 harg3 arg4 harg4 arg5 harg5 hc1 hc2 x0 x1 xo3).1, y ∈ pc.1.set :=
  View.cover_of_tiledL (runLater c i arg2 harg2 arg3 harg3 arg4 harg4 arg5 harg5 hc1 hc2 x0 x1 xo3).1 S1x512x1.size (by sl_kernel_rfl) y

theorem coverLater_3 (c : Dev nD) (i : grid0.Coords)
    (arg2 : Memref sig .tc .vmem S1x512x3 .f32) (harg2 : arg2.IsWhole) (arg3 : Memref sig .tc .vmem S1x4096x3 .f32) (harg3 : arg3.IsWhole)
    (arg4 : Memref sig .tc .vmem S1x512x1 .f32) (harg4 : arg4.IsWhole) (arg5 : Memref sig .tc .vmem S1x4096x1 .f32) (harg5 : arg5.IsWhole)
    (hc1 : ¬ k0_cond1 i = 1#1) (hc2 : k0_cond2 i = 1#1)
    (x0 : Vec F S1x512x3 .f32) (x1 : Vec F S1x4096x3 .f32) (xo3 : Vec F S1x4096x1 .f32) (y : S1x4096x1.Idx) :
    ∃ pc ∈ (runLater c i arg2 harg2 arg3 harg3 arg4 harg4 arg5 harg5 hc1 hc2 x0 x1 xo3).2.1, y ∈ pc.1.set :=
  View.cover_of_tiledL (runLater c i arg2 harg2 arg3 harg3 arg4 harg4 arg5 harg5 hc1 hc2 x0 x1 xo3).2.1 S1x4096x1.size (by sl_kernel_rfl) y

/-- What a first tile leaves in the first output's buffer: its pieces read back. -/
def outFirst_2 (c : Dev nD) (i : grid0.Coords)
    (arg2 : Memref sig .tc .vmem S1x512x3 .f32) (harg2 : arg2.IsWhole) (arg3 : Memref sig .tc .vmem S1x4096x3 .f32) (harg3 : arg3.IsWhole)
    (arg4 : Memref sig .tc .vmem S1x512x1 .f32) (harg4 : arg4.IsWhole) (arg5 : Memref sig .tc .vmem S1x4096x1 .f32) (harg5 : arg5.IsWhole)
    (hc1 : k0_cond1 i = 1#1) (hc2 : ¬ k0_cond2 i = 1#1)
    (x0 : Vec F S1x512x3 .f32) (x1 : Vec F S1x4096x3 .f32) : Vec F S1x512x1 .f32 :=
  VO2.read (Elt F) (VO2.writes (Elt F) VO2.junk (runFirst c i arg2 harg2 arg3 harg3 arg4 harg4 arg5 harg5 hc1 hc2 x0 x1).1)
/-- What a first tile leaves in the second output's buffer. -/
def outFirst_3 (c : Dev nD) (i : grid0.Coords)
    (arg2 : Memref sig .tc .vmem S1x512x3 .f32) (harg2 : arg2.IsWhole) (arg3 : Memref sig .tc .vmem S1x4096x3 .f32) (harg3 : arg3.IsWhole)
    (arg4 : Memref sig .tc .vmem S1x512x1 .f32) (harg4 : arg4.IsWhole) (arg5 : Memref sig .tc .vmem S1x4096x1 .f32) (harg5 : arg5.IsWhole)
    (hc1 : k0_cond1 i = 1#1) (hc2 : ¬ k0_cond2 i = 1#1)
    (x0 : Vec F S1x512x3 .f32) (x1 : Vec F S1x4096x3 .f32) : Vec F S1x4096x1 .f32 :=
  VO3.read (Elt F) (VO3.writes (Elt F) VO3.junk (runFirst c i arg2 harg2 arg3 harg3 arg4 harg4 arg5 harg5 hc1 hc2 x0 x1).2.1)
/-- What a later tile leaves in the first output's buffer. -/
def outLater_2 (c : Dev nD) (i : grid0.Coords)
    (arg2 : Memref sig .tc .vmem S1x512x3 .f32) (harg2 : arg2.IsWhole) (arg3 : Memref sig .tc .vmem S1x4096x3 .f32) (harg3 : arg3.IsWhole)
    (arg4 : Memref sig .tc .vmem S1x512x1 .f32) (harg4 : arg4.IsWhole) (arg5 : Memref sig .tc .vmem S1x4096x1 .f32) (harg5 : arg5.IsWhole)
    (hc1 : ¬ k0_cond1 i = 1#1) (hc2 : k0_cond2 i = 1#1)
    (x0 : Vec F S1x512x3 .f32) (x1 : Vec F S1x4096x3 .f32) (xo3 : Vec F S1x4096x1 .f32) : Vec F S1x512x1 .f32 :=
  VO2.read (Elt F) (VO2.writes (Elt F) VO2.junk (runLater c i arg2 harg2 arg3 harg3 arg4 harg4 arg5 harg5 hc1 hc2 x0 x1 xo3).1)
/-- What a later tile leaves in the second output's buffer, over what the tile before left (`xo3`). -/
def outLater_3 (c : Dev nD) (i : grid0.Coords)
    (arg2 : Memref sig .tc .vmem S1x512x3 .f32) (harg2 : arg2.IsWhole) (arg3 : Memref sig .tc .vmem S1x4096x3 .f32) (harg3 : arg3.IsWhole)
    (arg4 : Memref sig .tc .vmem S1x512x1 .f32) (harg4 : arg4.IsWhole) (arg5 : Memref sig .tc .vmem S1x4096x1 .f32) (harg5 : arg5.IsWhole)
    (hc1 : ¬ k0_cond1 i = 1#1) (hc2 : k0_cond2 i = 1#1)
    (x0 : Vec F S1x512x3 .f32) (x1 : Vec F S1x4096x3 .f32) (xo3 : Vec F S1x4096x1 .f32) : Vec F S1x4096x1 .f32 :=
  VO3.read (Elt F) (VO3.writes (Elt F) VO3.junk (runLater c i arg2 harg2 arg3 harg3 arg4 harg4 arg5 harg5 hc1 hc2 x0 x1 xo3).2.1)

/-! ## What the outputs hold after each point -/

/-- THE RUNNING COLUMN MINIMA: what the second output's buffer holds after the body at position `n` — a first tile's
    contents, or a later tile's over what position `n - 1` left. -/
def acc3 (c : Dev nD) : (n : ℕ) → n < cfg0.N → Vec F S1x4096x1 .f32
  | 0, hn => outFirst_3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩)
      ((hcond1 ⟨0, hn⟩).mpr (Nat.zero_mod _)) (fun h => (hcond2 ⟨0, hn⟩).mp h (Nat.zero_mod _)) (iblk m c 0 ⟨0, hn⟩) (iblk m c 1 ⟨0, hn⟩)
  | n + 1, hn =>
    if h0 : (n + 1) % 8 = 0 then
      outFirst_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        ((hcond1 ⟨n + 1, hn⟩).mpr h0) (fun h => (hcond2 ⟨n + 1, hn⟩).mp h h0) (iblk m c 0 ⟨n + 1, hn⟩) (iblk m c 1 ⟨n + 1, hn⟩)
    else
      outLater_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        (fun h => h0 ((hcond1 ⟨n + 1, hn⟩).mp h)) ((hcond2 ⟨n + 1, hn⟩).mpr h0) (iblk m c 0 ⟨n + 1, hn⟩) (iblk m c 1 ⟨n + 1, hn⟩) (acc3 c n (Nat.lt_of_succ_lt hn))

theorem acc3_first (c : Dev nD) (t : Fin cfg0.N) (h0 : t.val % 8 = 0) :
    acc3 m c t.val t.isLt = outFirst_3 c (grid0.coords t) (ms0 t) (hs0 t) (ms1 t) (hs1 t) (ms2 t) (hs2 t) (ms3 t) (hs3 t)
      ((hcond1 t).mpr h0) (fun h => (hcond2 t).mp h h0) (iblk m c 0 t) (iblk m c 1 t) := by
  obtain ⟨n, hn⟩ := t
  cases n with
  | zero => exact rfl
  | succ n => exact (dif_pos h0).trans rfl

theorem acc3_later (c : Dev nD) (t : Fin cfg0.N) (h0 : ¬t.val % 8 = 0) :
    acc3 m c t.val t.isLt = outLater_3 c (grid0.coords t) (ms0 t) (hs0 t) (ms1 t) (hs1 t) (ms2 t) (hs2 t) (ms3 t) (hs3 t)
      (fun h => h0 ((hcond1 t).mp h)) ((hcond2 t).mpr h0) (iblk m c 0 t) (iblk m c 1 t)
      (acc3 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- THE ROW MINIMA: what the first output's buffer holds after the body at point `t` (stored whole at every point). -/
def rows2 (c : Dev nD) (t : Fin cfg0.N) : Vec F S1x512x1 .f32 :=
  if h0 : t.val % 8 = 0 then
    outFirst_2 c (grid0.coords t) (ms0 t) (hs0 t) (ms1 t) (hs1 t) (ms2 t) (hs2 t) (ms3 t) (hs3 t)
      ((hcond1 t).mpr h0) (fun h => (hcond2 t).mp h h0) (iblk m c 0 t) (iblk m c 1 t)
  else
    outLater_2 c (grid0.coords t) (ms0 t) (hs0 t) (ms1 t) (hs1 t) (ms2 t) (hs2 t) (ms3 t) (hs3 t)
      (fun h => h0 ((hcond1 t).mp h)) ((hcond2 t).mpr h0) (iblk m c 0 t) (iblk m c 1 t)
      (acc3 m c (t.val - 1) (Nat.lt_of_le_of_lt (Nat.sub_le _ _) t.isLt))

/-! ## The pipeline's proof data -/

/-- The proof data of the pipeline on core `c`: the arrays as the region finds them; after the body at point `t`
    each input's buffer at its block, the first output's at the tile's row minima, the second's at the running column
    minima; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rows2 m c t
    | ⟨3, _⟩ => acc3 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = rows2 m c t := by dsimp only [dats]
theorem after_3 (c : Dev nD) (t : Fin cfg0.N) : (dats m 0 c).after 3 t = acc3 m c t.val t.isLt := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
/-- At a later tile the second output's current staging buffer holds what the body left at the point before: the
    buffer was not written back between (that happens only after a batch's last tile), and the window is never idle. -/
theorem before_3_later (c : Dev nD) (t : Fin cfg0.N) (h0 : ¬t.val % 8 = 0) (d) :
    (dats m 0 c).before 3 t d = acc3 m c (t.val - 1) (Nat.lt_of_le_of_lt (Nat.sub_le _ _) t.isLt) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    live3 (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the inputs' memrefs hold their blocks; the closed forms say which case the point is in; at a
    later tile the second output's buffer holds what the point before left; so that case's run applies, and the pieces
    it wrote, covering each buffer, read back as the proof data's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2, after_3]
  by_cases h0 : t.val % 8 = 0
  · rw [acc3_first m c t h0]
    unfold rows2; rw [dif_pos h0]
    unfold outFirst_2 outFirst_3
    iintro ⟨HΦ, Ho, ⟨%d0, H0⟩, ⟨%d1, H1⟩, ⟨%d2, H2⟩, ⟨%d3, H3⟩⟩
    iapply ((runFirst c (grid0.coords t) _ _ _ _ _ _ _ _ ((hcond1 t).mpr h0) (fun h => (hcond2 t).mp h h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverFirst_2 c _ _ _ _ _ _ _ _ _ _ _ _ _)
    unfold owns; iexists _; isplitr
    swap; · iexact H3
    ipureintro; exact View.read_writes_of_cover _ _ _ _ _ (coverFirst_3 c _ _ _ _ _ _ _ _ _ _ _ _ _)
  · rw [acc3_later m c t h0]
    simp only [before_3_later m c t h0]
    unfold rows2; rw [dif_neg h0]
    unfold outLater_2 outLater_3
    iintro ⟨HΦ, Ho, ⟨%d0, H0⟩, ⟨%d1, H1⟩, ⟨%d2, H2⟩, ⟨%d3, H3⟩⟩
    iapply ((runLater c (grid0.coords t) _ _ _ _ _ _ _ _ (fun h => h0 ((hcond1 t).mp h)) ((hcond2 t).mpr h0) (iblk m c 0 t) (iblk m c 1 t) _).2.2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverLater_2 c _ _ _ _ _ _ _ _ _ _ _ _ _ _)
    unfold owns; iexists _; isplitr
    swap; · iexact H3
    ipureintro; exact View.read_writes_of_cover _ _ _ _ _ (coverLater_3 c _ _ _ _ _ _ _ _ _ _ _ _ _ _)

set_option maxHeartbeats 1600000 in
/-- The library's body obligation, at every point. -/
theorem body_obligation (c : Dev nD) : BodyObligation (dats (F := F) m 0 c) (defs₀ (F := F)) Variants.none () Set.univ := fun t => by
  rw [bigSep_W0, bigSep_W0]
  rw [live3 (cfg0.grid.coords t)]
  exact sound_body m c t

/-! ## The run and the frame -/

set_option backward.isDefEq.respectTransparency.types false in
/-- Every weakly fair execution of @main terminates, and every final state has every array of the pipeline at what
    the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.BodyIdeal.lean ====
/-
  The kernel body's run and the pipeline's frame for this program.

  The grid is 4 × 8: point `t` is batch `t / 8`, tile `t % 8` of 512 source points.  At every point the body
  loads its source tile and the batch's whole target cloud, stores the tile's row minima into the first output's
  buffer, and then either (first tile of a batch, `t % 8 = 0`) stores the tile's column minima into the second
  output's buffer, or (a later tile) loads that buffer, joins it with the tile's column minima by `min` and stores
  it back.  Exactly one of the two conditionals is taken at every point, so the second output's buffer is never
  left idle; it is written back only after the batch's last tile (`t % 8 = 7`), so at a later tile it still holds
  what the tile before left.  From these two cases the proof data names what each buffer holds after each point,
  the body obligation follows case by case, and the library's frame run gives termination, no fault, and the
  argument arrays unchanged.
-/
import proofs.«124588_j30124900614424_1_alg».proof.Proof.Gen.KernelIdeal.Frame
import proofs.«124588_j30124900614424_1_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditionals over the grid -/

/-- The first conditional (the reset) is taken exactly at a batch's first tile. -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- The second conditional (the join) is taken exactly at the later tiles. -/
theorem hcond2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)
/-- One of the two is taken at every grid coordinate: the second output is never idle. -/
theorem live3 : ∀ i : grid0.Coords, cfg0.idle 3 i = false :=
  (by decide +kernel : ∀ i : grid0.Coords, (!(k0_cond1 i == 1#1) && !(k0_cond2 i == 1#1)) = false)

/-- One staging buffer of each output window, through which its contents are stated. -/
abbrev VO2 : View sig .tc .vmem S1x512x1 .f32 := (Memref.whole cc0_stg2_0 : Memref sig .tc .vmem S1x512x1 .f32).view
abbrev VO3 : View sig .tc .vmem S1x4096x1 .f32 := (Memref.whole cc0_stg3_0 : Memref sig .tc .vmem S1x4096x1 .f32).view
/-- Each window's current staging memref at point `t`, as the pipeline passes it, and its wholeness. -/
abbrev ms0 (t : Fin cfg0.N) : Memref sig .tc .vmem S1x512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x4096x1 .f32 := win0_3.stage (cfg0.slots t 3)
abbrev hs3 (t : Fin cfg0.N) : (ms3 t).IsWhole := hstage0_3 ((cfg0.slots t 3).cast nbuf0_3)

/-! ## The body's run in each case -/

set_option maxHeartbeats 1000000 in
/-- FIRST TILE (reset taken, join not): on whole memrefs, the inputs at their contents and the outputs at anything, the
    body runs to a state holding the inputs as they were and each output's buffer with the pieces its stores wrote
    (the pieces are found by the run). -/
noncomputable def runFirst (c : Dev nD) (i : grid0.Coords)
    (arg2 : Memref sig .tc .vmem S1x512x3 .f32) (harg2 : arg2.IsWhole) (arg3 : Memref sig .tc .vmem S1x4096x3 .f32) (harg3 : arg3.IsWhole)
    (arg4 : Memref sig .tc .vmem S1x512x1 .f32) (harg4 : arg4.IsWhole) (arg5 : Memref sig .tc .vmem S1x4096x1 .f32) (harg5 : arg5.IsWhole)
    (hc1 : k0_cond1 i = 1#1) (hc2 : ¬ k0_cond2 i = 1#1)
    (x0 : Vec F S1x512x3 .f32) (x1 : Vec F S1x4096x3 .f32) :
    Σ' (L2 : List (View.Piece (Elt F) S1x512x1 .f32)), { L3 : List (View.Piece (Elt F) S1x4096x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

set_option maxHeartbeats 1000000 in
/-- LATER TILE (reset not taken, join taken): the same, the second output's buffer now at the running contents `xo3`
    the tile before left, which the body loads before it stores. -/
noncomputable def runLater (c : Dev nD) (i : grid0.Coords)
    (arg2 : Memref sig .tc .vmem S1x512x3 .f32) (harg2 : arg2.IsWhole) (arg3 : Memref sig .tc .vmem S1x4096x3 .f32) (harg3 : arg3.IsWhole)
    (arg4 : Memref sig .tc .vmem S1x512x1 .f32) (harg4 : arg4.IsWhole) (arg5 : Memref sig .tc .vmem S1x4096x1 .f32) (harg5 : arg5.IsWhole)
    (hc1 : ¬ k0_cond1 i = 1#1) (hc2 : k0_cond2 i = 1#1)
    (x0 : Vec F S1x512x3 .f32) (x1 : Vec F S1x4096x3 .f32) (xo3 : Vec F S1x4096x1 .f32) :
    Σ' (L2 : List (View.Piece (Elt F) S1x512x1 .f32)), { L3 : List (View.Piece (Elt F) S1x4096x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

/-! ## What each output's buffer holds after the body, case by case -/

theorem coverFirst_2 (c : Dev nD) (i : grid0.Coords)
    (arg2 : Memref sig .tc .vmem S1x512x3 .f32) (harg2 : arg2.IsWhole) (arg3 : Memref sig .tc .vmem S1x4096x3 .f32) (harg3 : arg3.IsWhole)
    (arg4 : Memref sig .tc .vmem S1x512x1 .f32) (harg4 : arg4.IsWhole) (arg5 : Memref sig .tc .vmem S1x4096x1 .f32) (harg5 : arg5.IsWhole)
    (hc1 : k0_cond1 i = 1#1) (hc2 : ¬ k0_cond2 i = 1#1)
    (x0 : Vec F S1x512x3 .f32) (x1 : Vec F S1x4096x3 .f32) (y : S1x512x1.Idx) :
    ∃ pc ∈ (runFirst c i arg2 harg2 arg3 harg3 arg4 harg4 arg5 harg5 hc1 hc2 x0 x1).1, y ∈ pc.1.set :=
  View.cover_of_tiledL (runFirst c i arg2 harg2 arg3 harg3 arg4 harg4 arg5 harg5 hc1 hc2 x0 x1).1 S1x512x1.size (by sl_kernel_rfl) y

theorem coverFirst_3 (c : Dev nD) (i : grid0.Coords)
    (arg2 : Memref sig .tc .vmem S1x512x3 .f32) (harg2 : arg2.IsWhole) (arg3 : Memref sig .tc .vmem S1x4096x3 .f32) (harg3 : arg3.IsWhole)
    (arg4 : Memref sig .tc .vmem S1x512x1 .f32) (harg4 : arg4.IsWhole) (arg5 : Memref sig .tc .vmem S1x4096x1 .f32) (harg5 : arg5.IsWhole)
    (hc1 : k0_cond1 i = 1#1) (hc2 : ¬ k0_cond2 i = 1#1)
    (x0 : Vec F S1x512x3 .f32) (x1 : Vec F S1x4096x3 .f32) (y : S1x4096x1.Idx) :
    ∃ pc ∈ (runFirst c i arg2 harg2 arg3 harg3 arg4 harg4 arg5 harg5 hc1 hc2 x0 x1).2.1, y ∈ pc.1.set :=
  View.cover_of_tiledL (runFirst c i arg2 harg2 arg3 harg3 arg4 harg4 arg5 harg5 hc1 hc2 x0 x1).2.1 S1x4096x1.size (by sl_kernel_rfl) y

theorem coverLater_2 (c : Dev nD) (i : grid0.Coords)
    (arg2 : Memref sig .tc .vmem S1x512x3 .f32) (harg2 : arg2.IsWhole) (arg3 : Memref sig .tc .vmem S1x4096x3 .f32) (harg3 : arg3.IsWhole)
    (arg4 : Memref sig .tc .vmem S1x512x1 .f32) (harg4 : arg4.IsWhole) (arg5 : Memref sig .tc .vmem S1x4096x1 .f32) (harg5 : arg5.IsWhole)
    (hc1 : ¬ k0_cond1 i = 1#1) (hc2 : k0_cond2 i = 1#1)
    (x0 : Vec F S1x512x3 .f32) (x1 : Vec F S1x4096x3 .f32) (xo3 : Vec F S1x4096x1 .f32) (y : S1x512x1.Idx) :
    ∃ pc ∈ (runLater c i arg2 harg2 arg3 harg3 arg4 harg4 arg5 harg5 hc1 hc2 x0 x1 xo3).1, y ∈ pc.1.set :=
  View.cover_of_tiledL (runLater c i arg2 harg2 arg3 harg3 arg4 harg4 arg5 harg5 hc1 hc2 x0 x1 xo3).1 S1x512x1.size (by sl_kernel_rfl) y

theorem coverLater_3 (c : Dev nD) (i : grid0.Coords)
    (arg2 : Memref sig .tc .vmem S1x512x3 .f32) (harg2 : arg2.IsWhole) (arg3 : Memref sig .tc .vmem S1x4096x3 .f32) (harg3 : arg3.IsWhole)
    (arg4 : Memref sig .tc .vmem S1x512x1 .f32) (harg4 : arg4.IsWhole) (arg5 : Memref sig .tc .vmem S1x4096x1 .f32) (harg5 : arg5.IsWhole)
    (hc1 : ¬ k0_cond1 i = 1#1) (hc2 : k0_cond2 i = 1#1)
    (x0 : Vec F S1x512x3 .f32) (x1 : Vec F S1x4096x3 .f32) (xo3 : Vec F S1x4096x1 .f32) (y : S1x4096x1.Idx) :
    ∃ pc ∈ (runLater c i arg2 harg2 arg3 harg3 arg4 harg4 arg5 harg5 hc1 hc2 x0 x1 xo3).2.1, y ∈ pc.1.set :=
  View.cover_of_tiledL (runLater c i arg2 harg2 arg3 harg3 arg4 harg4 arg5 harg5 hc1 hc2 x0 x1 xo3).2.1 S1x4096x1.size (by sl_kernel_rfl) y

/-- What a first tile leaves in the first output's buffer: its pieces read back. -/
def outFirst_2 (c : Dev nD) (i : grid0.Coords)
    (arg2 : Memref sig .tc .vmem S1x512x3 .f32) (harg2 : arg2.IsWhole) (arg3 : Memref sig .tc .vmem S1x4096x3 .f32) (harg3 : arg3.IsWhole)
    (arg4 : Memref sig .tc .vmem S1x512x1 .f32) (harg4 : arg4.IsWhole) (arg5 : Memref sig .tc .vmem S1x4096x1 .f32) (harg5 : arg5.IsWhole)
    (hc1 : k0_cond1 i = 1#1) (hc2 : ¬ k0_cond2 i = 1#1)
    (x0 : Vec F S1x512x3 .f32) (x1 : Vec F S1x4096x3 .f32) : Vec F S1x512x1 .f32 :=
  VO2.read (Elt F) (VO2.writes (Elt F) VO2.junk (runFirst c i arg2 harg2 arg3 harg3 arg4 harg4 arg5 harg5 hc1 hc2 x0 x1).1)
/-- What a first tile leaves in the second output's buffer. -/
def outFirst_3 (c : Dev nD) (i : grid0.Coords)
    (arg2 : Memref sig .tc .vmem S1x512x3 .f32) (harg2 : arg2.IsWhole) (arg3 : Memref sig .tc .vmem S1x4096x3 .f32) (harg3 : arg3.IsWhole)
    (arg4 : Memref sig .tc .vmem S1x512x1 .f32) (harg4 : arg4.IsWhole) (arg5 : Memref sig .tc .vmem S1x4096x1 .f32) (harg5 : arg5.IsWhole)
    (hc1 : k0_cond1 i = 1#1) (hc2 : ¬ k0_cond2 i = 1#1)
    (x0 : Vec F S1x512x3 .f32) (x1 : Vec F S1x4096x3 .f32) : Vec F S1x4096x1 .f32 :=
  VO3.read (Elt F) (VO3.writes (Elt F) VO3.junk (runFirst c i arg2 harg2 arg3 harg3 arg4 harg4 arg5 harg5 hc1 hc2 x0 x1).2.1)
/-- What a later tile leaves in the first output's buffer. -/
def outLater_2 (c : Dev nD) (i : grid0.Coords)
    (arg2 : Memref sig .tc .vmem S1x512x3 .f32) (harg2 : arg2.IsWhole) (arg3 : Memref sig .tc .vmem S1x4096x3 .f32) (harg3 : arg3.IsWhole)
    (arg4 : Memref sig .tc .vmem S1x512x1 .f32) (harg4 : arg4.IsWhole) (arg5 : Memref sig .tc .vmem S1x4096x1 .f32) (harg5 : arg5.IsWhole)
    (hc1 : ¬ k0_cond1 i = 1#1) (hc2 : k0_cond2 i = 1#1)
    (x0 : Vec F S1x512x3 .f32) (x1 : Vec F S1x4096x3 .f32) (xo3 : Vec F S1x4096x1 .f32) : Vec F S1x512x1 .f32 :=
  VO2.read (Elt F) (VO2.writes (Elt F) VO2.junk (runLater c i arg2 harg2 arg3 harg3 arg4 harg4 arg5 harg5 hc1 hc2 x0 x1 xo3).1)
/-- What a later tile leaves in the second output's buffer, over what the tile before left (`xo3`). -/
def outLater_3 (c : Dev nD) (i : grid0.Coords)
    (arg2 : Memref sig .tc .vmem S1x512x3 .f32) (harg2 : arg2.IsWhole) (arg3 : Memref sig .tc .vmem S1x4096x3 .f32) (harg3 : arg3.IsWhole)
    (arg4 : Memref sig .tc .vmem S1x512x1 .f32) (harg4 : arg4.IsWhole) (arg5 : Memref sig .tc .vmem S1x4096x1 .f32) (harg5 : arg5.IsWhole)
    (hc1 : ¬ k0_cond1 i = 1#1) (hc2 : k0_cond2 i = 1#1)
    (x0 : Vec F S1x512x3 .f32) (x1 : Vec F S1x4096x3 .f32) (xo3 : Vec F S1x4096x1 .f32) : Vec F S1x4096x1 .f32 :=
  VO3.read (Elt F) (VO3.writes (Elt F) VO3.junk (runLater c i arg2 harg2 arg3 harg3 arg4 harg4 arg5 harg5 hc1 hc2 x0 x1 xo3).2.1)

/-! ## What the outputs hold after each point -/

/-- THE RUNNING COLUMN MINIMA: what the second output's buffer holds after the body at position `n` — a first tile's
    contents, or a later tile's over what position `n - 1` left. -/
def acc3 (c : Dev nD) : (n : ℕ) → n < cfg0.N → Vec F S1x4096x1 .f32
  | 0, hn => outFirst_3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩)
      ((hcond1 ⟨0, hn⟩).mpr (Nat.zero_mod _)) (fun h => (hcond2 ⟨0, hn⟩).mp h (Nat.zero_mod _)) (iblk m c 0 ⟨0, hn⟩) (iblk m c 1 ⟨0, hn⟩)
  | n + 1, hn =>
    if h0 : (n + 1) % 8 = 0 then
      outFirst_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        ((hcond1 ⟨n + 1, hn⟩).mpr h0) (fun h => (hcond2 ⟨n + 1, hn⟩).mp h h0) (iblk m c 0 ⟨n + 1, hn⟩) (iblk m c 1 ⟨n + 1, hn⟩)
    else
      outLater_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        (fun h => h0 ((hcond1 ⟨n + 1, hn⟩).mp h)) ((hcond2 ⟨n + 1, hn⟩).mpr h0) (iblk m c 0 ⟨n + 1, hn⟩) (iblk m c 1 ⟨n + 1, hn⟩) (acc3 c n (Nat.lt_of_succ_lt hn))

theorem acc3_first (c : Dev nD) (t : Fin cfg0.N) (h0 : t.val % 8 = 0) :
    acc3 m c t.val t.isLt = outFirst_3 c (grid0.coords t) (ms0 t) (hs0 t) (ms1 t) (hs1 t) (ms2 t) (hs2 t) (ms3 t) (hs3 t)
      ((hcond1 t).mpr h0) (fun h => (hcond2 t).mp h h0) (iblk m c 0 t) (iblk m c 1 t) := by
  obtain ⟨n, hn⟩ := t
  cases n with
  | zero => exact rfl
  | succ n => exact (dif_pos h0).trans rfl

theorem acc3_later (c : Dev nD) (t : Fin cfg0.N) (h0 : ¬t.val % 8 = 0) :
    acc3 m c t.val t.isLt = outLater_3 c (grid0.coords t) (ms0 t) (hs0 t) (ms1 t) (hs1 t) (ms2 t) (hs2 t) (ms3 t) (hs3 t)
      (fun h => h0 ((hcond1 t).mp h)) ((hcond2 t).mpr h0) (iblk m c 0 t) (iblk m c 1 t)
      (acc3 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- THE ROW MINIMA: what the first output's buffer holds after the body at point `t` (stored whole at every point). -/
def rows2 (c : Dev nD) (t : Fin cfg0.N) : Vec F S1x512x1 .f32 :=
  if h0 : t.val % 8 = 0 then
    outFirst_2 c (grid0.coords t) (ms0 t) (hs0 t) (ms1 t) (hs1 t) (ms2 t) (hs2 t) (ms3 t) (hs3 t)
      ((hcond1 t).mpr h0) (fun h => (hcond2 t).mp h h0) (iblk m c 0 t) (iblk m c 1 t)
  else
    outLater_2 c (grid0.coords t) (ms0 t) (hs0 t) (ms1 t) (hs1 t) (ms2 t) (hs2 t) (ms3 t) (hs3 t)
      (fun h => h0 ((hcond1 t).mp h)) ((hcond2 t).mpr h0) (iblk m c 0 t) (iblk m c 1 t)
      (acc3 m c (t.val - 1) (Nat.lt_of_le_of_lt (Nat.sub_le _ _) t.isLt))

/-! ## The pipeline's proof data -/

/-- The proof data of the pipeline on core `c`: the arrays as the region finds them; after the body at point `t`
    each input's buffer at its block, the first output's at the tile's row minima, the second's at the running column
    minima; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rows2 m c t
    | ⟨3, _⟩ => acc3 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = rows2 m c t := by dsimp only [dats]
theorem after_3 (c : Dev nD) (t : Fin cfg0.N) : (dats m 0 c).after 3 t = acc3 m c t.val t.isLt := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
/-- At a later tile the second output's current staging buffer holds what the body left at the point before: the
    buffer was not written back between (that happens only after a batch's last tile), and the window is never idle. -/
theorem before_3_later (c : Dev nD) (t : Fin cfg0.N) (h0 : ¬t.val % 8 = 0) (d) :
    (dats m 0 c).before 3 t d = acc3 m c (t.val - 1) (Nat.lt_of_le_of_lt (Nat.sub_le _ _) t.isLt) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    live3 (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the inputs' memrefs hold their blocks; the closed forms say which case the point is in; at a
    later tile the second output's buffer holds what the point before left; so that case's run applies, and the pieces
    it wrote, covering each buffer, read back as the proof data's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2, after_3]
  by_cases h0 : t.val % 8 = 0
  · rw [acc3_first m c t h0]
    unfold rows2; rw [dif_pos h0]
    unfold outFirst_2 outFirst_3
    iintro ⟨HΦ, Ho, ⟨%d0, H0⟩, ⟨%d1, H1⟩, ⟨%d2, H2⟩, ⟨%d3, H3⟩⟩
    iapply ((runFirst c (grid0.coords t) _ _ _ _ _ _ _ _ ((hcond1 t).mpr h0) (fun h => (hcond2 t).mp h h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverFirst_2 c _ _ _ _ _ _ _ _ _ _ _ _ _)
    unfold owns; iexists _; isplitr
    swap; · iexact H3
    ipureintro; exact View.read_writes_of_cover _ _ _ _ _ (coverFirst_3 c _ _ _ _ _ _ _ _ _ _ _ _ _)
  · rw [acc3_later m c t h0]
    simp only [before_3_later m c t h0]
    unfold rows2; rw [dif_neg h0]
    unfold outLater_2 outLater_3
    iintro ⟨HΦ, Ho, ⟨%d0, H0⟩, ⟨%d1, H1⟩, ⟨%d2, H2⟩, ⟨%d3, H3⟩⟩
    iapply ((runLater c (grid0.coords t) _ _ _ _ _ _ _ _ (fun h => h0 ((hcond1 t).mp h)) ((hcond2 t).mpr h0) (iblk m c 0 t) (iblk m c 1 t) _).2.2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverLater_2 c _ _ _ _ _ _ _ _ _ _ _ _ _ _)
    unfold owns; iexists _; isplitr
    swap; · iexact H3
    ipureintro; exact View.read_writes_of_cover _ _ _ _ _ (coverLater_3 c _ _ _ _ _ _ _ _ _ _ _ _ _ _)

set_option maxHeartbeats 1600000 in
/-- The library's body obligation, at every point. -/
theorem body_obligation (c : Dev nD) : BodyObligation (dats (F := F) m 0 c) (defs₀ (F := F)) Variants.none () Set.univ := fun t => by
  rw [bigSep_W0, bigSep_W0]
  rw [live3 (cfg0.grid.coords t)]
  exact sound_body m c t

/-! ## The run and the frame -/

set_option backward.isDefEq.respectTransparency.types false in
/-- Every weakly fair execution of @main terminates, and every final state has every array of the pipeline at what
    the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Pieces.lean ====
/-
  What the body's stores leave, named.  In either case the first output's buffer ends at the tile's row minima and
  the second output's at the tile's column minima — alone at a batch's first tile, joined by `min` with what the
  buffer held at a later one.  Hence, point by point, the second output's buffer holds the running column minima
  `colAcc`: the first tile's, then each later tile's joined in.
-/
import proofs.«124588_j30124900614424_1_alg».proof.Proof.BodyIdeal
import Idealize.ShloMosaic.Lib.Pipeline.Value

set_option maxRecDepth 16384

noncomputable section

namespace Cert.KernelIdeal.Pieces

open Idealize.ShloMosaic Idealize.ShloMosaic.TcCoe Idealize.ShloMosaic.Tactic Idealize.SL.Sem
open Idealize.ShloMosaic.Pipeline (Dat)
open Cert.KernelIdeal Cert.KernelIdeal.Gen Cert.KernelIdeal.Body

variable {F : FTy → Type} [FloatOps F]
variable (m : (ℓ : Loc nD τ sig) → Buf (Elt F) ℓ)

theorem hz3 : (![0, 0, 0] : Fin 3 → Nat) = fun _ => 0 := funext fun a => by fin_cases a <;> rfl

/-- A first tile leaves the tile's row minima in the first output's buffer. -/
theorem outFirst_2_eq (c : Dev nD) (i : grid0.Coords)
    (a2 : Memref sig .tc .vmem S1x512x3 .f32) (h2 : a2.IsWhole) (a3 : Memref sig .tc .vmem S1x4096x3 .f32) (h3 : a3.IsWhole)
    (a4 : Memref sig .tc .vmem S1x512x1 .f32) (h4 : a4.IsWhole) (a5 : Memref sig .tc .vmem S1x4096x1 .f32) (h5 : a5.IsWhole)
    (hc1 : k0_cond1 i = 1#1) (hc2 : ¬ k0_cond2 i = 1#1) (x0 : Vec F S1x512x3 .f32) (x1 : Vec F S1x4096x3 .f32) :
    outFirst_2 c i a2 h2 a3 h3 a4 h4 a5 h5 hc1 hc2 x0 x1 = k0_pay2 x0 x1 := by
  unfold outFirst_2
  rw [View.read_writes_eq_canon _ _ _ (coverFirst_2 c i a2 h2 a3 h3 a4 h4 a5 h5 hc1 hc2 x0 x1)]
  unfold runFirst
  dsimp only
  rw [View.canon_unit_zero hz3]
  simp only [View.readAt_eq_ld, h2.read_unread, h3.read_unread, View.ld_unit_zero (S := S1x512x3) hz3, View.ld_unit_zero (S := S1x4096x3) hz3]

/-- A first tile leaves the tile's column minima in the second output's buffer. -/
theorem outFirst_3_eq (c : Dev nD) (i : grid0.Coords)
    (a2 : Memref sig .tc .vmem S1x512x3 .f32) (h2 : a2.IsWhole) (a3 : Memref sig .tc .vmem S1x4096x3 .f32) (h3 : a3.IsWhole)
    (a4 : Memref sig .tc .vmem S1x512x1 .f32) (h4 : a4.IsWhole) (a5 : Memref sig .tc .vmem S1x4096x1 .f32) (h5 : a5.IsWhole)
    (hc1 : k0_cond1 i = 1#1) (hc2 : ¬ k0_cond2 i = 1#1) (x0 : Vec F S1x512x3 .f32) (x1 : Vec F S1x4096x3 .f32) :
    outFirst_3 c i a2 h2 a3 h3 a4 h4 a5 h5 hc1 hc2 x0 x1 = k0_pay4 x0 x1 := by
  unfold outFirst_3
  rw [View.read_writes_eq_canon _ _ _ (coverFirst_3 c i a2 h2 a3 h3 a4 h4 a5 h5 hc1 hc2 x0 x1)]
  unfold runFirst
  dsimp only
  rw [View.canon_unit_zero hz3]
  simp only [View.readAt_eq_ld, h2.read_unread, h3.read_unread, View.ld_unit_zero (S := S1x512x3) hz3, View.ld_unit_zero (S := S1x4096x3) hz3]

/-- A later tile leaves the tile's row minima in the first output's buffer. -/
theorem outLater_2_eq (c : Dev nD) (i : grid0.Coords)
    (a2 : Memref sig .tc .vmem S1x512x3 .f32) (h2 : a2.IsWhole) (a3 : Memref sig .tc .vmem S1x4096x3 .f32) (h3 : a3.IsWhole)
    (a4 : Memref sig .tc .vmem S1x512x1 .f32) (h4 : a4.IsWhole) (a5 : Memref sig .tc .vmem S1x4096x1 .f32) (h5 : a5.IsWhole)
    (hc1 : ¬ k0_cond1 i = 1#1) (hc2 : k0_cond2 i = 1#1) (x0 : Vec F S1x512x3 .f32) (x1 : Vec F S1x4096x3 .f32) (xo3 : Vec F S1x4096x1 .f32) :
    outLater_2 c i a2 h2 a3 h3 a4 h4 a5 h5 hc1 hc2 x0 x1 xo3 = k0_pay2 x0 x1 := by
  unfold outLater_2
  rw [View.read_writes_eq_canon _ _ _ (coverLater_2 c i a2 h2 a3 h3 a4 h4 a5 h5 hc1 hc2 x0 x1 xo3)]
  unfold runLater
  dsimp only
  rw [View.canon_unit_zero hz3]
  simp only [View.readAt_eq_ld, h2.read_unread, h3.read_unread, View.ld_unit_zero (S := S1x512x3) hz3, View.ld_unit_zero (S := S1x4096x3) hz3]

/-- A later tile leaves, in the second output's buffer holding `xo3`, the elementwise minimum of `xo3` and the tile's
    column minima. -/
theorem outLater_3_eq (c : Dev nD) (i : grid0.Coords)
    (a2 : Memref sig .tc .vmem S1x512x3 .f32) (h2 : a2.IsWhole) (a3 : Memref sig .tc .vmem S1x4096x3 .f32) (h3 : a3.IsWhole)
    (a4 : Memref sig .tc .vmem S1x512x1 .f32) (h4 : a4.IsWhole) (a5 : Memref sig .tc .vmem S1x4096x1 .f32) (h5 : a5.IsWhole)
    (hc1 : ¬ k0_cond1 i = 1#1) (hc2 : k0_cond2 i = 1#1) (x0 : Vec F S1x512x3 .f32) (x1 : Vec F S1x4096x3 .f32) (xo3 : Vec F S1x4096x1 .f32) :
    outLater_3 c i a2 h2 a3 h3 a4 h4 a5 h5 hc1 hc2 x0 x1 xo3 = k0_pay5 x0 x1 xo3 := by
  unfold outLater_3
  rw [View.read_writes_eq_canon _ _ _ (coverLater_3 c i a2 h2 a3 h3 a4 h4 a5 h5 hc1 hc2 x0 x1 xo3)]
  unfold runLater
  dsimp only
  rw [View.canon_unit_zero hz3]
  simp only [View.readAt_eq_ld, h2.read_unread, h3.read_unread, h5.read_unread, View.ld_unit_zero (S := S1x512x3) hz3, View.ld_unit_zero (S := S1x4096x3) hz3, View.ld_unit_zero (S := S1x4096x1) hz3]

/-- THE RUNNING COLUMN MINIMA after position `n`: a batch's first tile gives its own column minima; a later tile joins
    its column minima to what the position before left. -/
def colAcc (c : Dev nD) : (n : ℕ) → n < cfg0.N → Vec F S1x4096x1 .f32
  | 0, h => k0_pay4 (iblk m c 0 ⟨0, h⟩) (iblk m c 1 ⟨0, h⟩)
  | n + 1, h =>
    if (n + 1) % 8 = 0 then k0_pay4 (iblk m c 0 ⟨n + 1, h⟩) (iblk m c 1 ⟨n + 1, h⟩)
    else k0_pay5 (iblk m c 0 ⟨n + 1, h⟩) (iblk m c 1 ⟨n + 1, h⟩) (colAcc c n (Nat.lt_of_succ_lt h))

/-- What the second output's buffer holds after each point is the running column minima: by induction on the point. -/
theorem acc3_eq (c : Dev nD) : ∀ (n : ℕ) (h : n < cfg0.N), acc3 m c n h = colAcc m c n h
  | 0, h => (acc3_first m c ⟨0, h⟩ rfl).trans (outFirst_3_eq ..)
  | n + 1, h => by
    by_cases h0 : (n + 1) % 8 = 0
    · rw [acc3_first m c ⟨n + 1, h⟩ h0, outFirst_3_eq]
      show _ = (if (n + 1) % 8 = 0 then _ else _)
      rw [if_pos h0]
    · rw [acc3_later m c ⟨n + 1, h⟩ h0, outLater_3_eq]
      show k0_pay5 _ _ (acc3 m c n _) = (if (n + 1) % 8 = 0 then _ else _)
      rw [if_neg h0, acc3_eq c n]

/-- What the first output's buffer holds after each point is the tile's row minima. -/
theorem rows2_eq (c : Dev nD) (t : Fin cfg0.N) : rows2 m c t = k0_pay2 (iblk m c 0 t) (iblk m c 1 t) := by
  unfold rows2
  split
  · exact outFirst_2_eq ..
  · exact outLater_2_eq ..

end Cert.KernelIdeal.Pieces

end
-- ==== Proof.Spec.lean ====
/-
  The chamfer distance over the extended reals, as plain functions of the two point clouds
  `x, y : [4, 4096, 3]`.  For a batch `b`, a source point `n` and a target point `m`

      dist b n m = (∑ₖ x[b,n,k]² + ∑ₖ y[b,m,k]²) − 2 · ∑ₖ x[b,n,k]·y[b,m,k],

  `s2t b n` is the minimum over `m` of `dist b n m` (from +∞), `t2s b m` the minimum over `n`.
  A minimum is kept as a `Finset.fold min`; what is used of it is its universal property
  (`c ≤ fold ↔ c ≤ start ∧ ∀ i, c ≤ f i`), which also gives that a minimum taken tile by tile
  (eight tiles of 512 source points, each folded from +∞ and then joined by `min`) is the
  minimum over all 4096 points.
-/
import Idealize.ShloMosaic.PureOps.Ideal
import Idealize.ShloMosaic.Lib.ValueIdx

noncomputable section

namespace Cert.Chamfer

open Idealize.ShloMosaic Idealize.ShloMosaic.ValueIdx

/-- A point cloud: four batches of 4096 points in three coordinates. -/
abbrev Cloud := (⟨3, ![4, 4096, 3]⟩ : Shape).Idx → EReal

/-- The squared norm of point `n` of batch `b`. -/
def sq (x : Cloud) (b : Fin 4) (n : Fin 4096) : EReal := ∑ k : Fin 3, x (ix3 b n k) * x (ix3 b n k)

/-- The inner product of source point `n` and target point `m` of batch `b`. -/
def dot (x y : Cloud) (b : Fin 4) (n m : Fin 4096) : EReal := ∑ k : Fin 3, x (ix3 b n k) * y (ix3 b m k)

/-- The number two, as both programs write it (the f32 word 0x40000000). -/
def two : EReal := Ideal.ofBits .f32 0x40000000#32

/-- Where every minimum starts: the f32 word of +∞. -/
def top : EReal := Ideal.ofBits .f32 0x7F800000#32

/-- The expanded squared distance. -/
def dist (x y : Cloud) (b : Fin 4) (n m : Fin 4096) : EReal := (sq x b n + sq y b m) - two * dot x y b n m

/-- Source to target: for each source point the least distance to a target point. -/
def s2t (x y : Cloud) (b : Fin 4) (n : Fin 4096) : EReal :=
  (Finset.univ : Finset (Fin 4096)).fold min top (fun m => dist x y b n m)

/-- Target to source: for each target point the least distance to a source point. -/
def t2s (x y : Cloud) (b : Fin 4) (m : Fin 4096) : EReal :=
  (Finset.univ : Finset (Fin 4096)).fold min top (fun n => dist x y b n m)

/-- Source point `r` of tile `j` (eight tiles of 512). -/
def tileRow (j : Fin 8) (r : Fin 512) : Fin 4096 := ⟨j.val * 512 + r.val, by omega⟩

/-- The least distance from target point `m` to the source points of tile `j`. -/
def tileMin (x y : Cloud) (b : Fin 4) (j : Fin 8) (m : Fin 4096) : EReal :=
  (Finset.univ : Finset (Fin 512)).fold min top (fun r => dist x y b (tileRow j r) m)

/-- The running minimum after tiles `0 … j`: the first tile's minimum, then joined with each later tile's. -/
def accMin (x y : Cloud) (b : Fin 4) (m : Fin 4096) : ℕ → EReal
  | 0 => tileMin x y b 0 m
  | j + 1 => if h : j + 1 < 8 then min (accMin x y b m j) (tileMin x y b ⟨j + 1, h⟩ m) else accMin x y b m j

theorem le_tileMin (x y : Cloud) (b : Fin 4) (j : Fin 8) (m : Fin 4096) (c : EReal) :
    c ≤ tileMin x y b j m ↔ c ≤ top ∧ ∀ r : Fin 512, c ≤ dist x y b (tileRow j r) m := by
  unfold tileMin; rw [Finset.le_fold_min]; simp

theorem lt_next_tile (a j : ℕ) (h : a < (j + 1) * 512) : a < (j + 1 + 1) * 512 :=
  Nat.lt_of_lt_of_le h (Nat.mul_le_mul_right 512 (Nat.le_succ (j + 1)))
theorem in_next_tile (j r : ℕ) (h : r < 512) : (j + 1) * 512 + r < (j + 1 + 1) * 512 := by
  rw [Nat.add_mul (j + 1) 1 512, Nat.one_mul]; exact Nat.add_lt_add_left h _

theorem tileRow_val (j : Fin 8) (r : Fin 512) : (tileRow j r).val = j.val * 512 + r.val := rfl

theorem accMin_succ (x y : Cloud) (b : Fin 4) (m : Fin 4096) (j : ℕ) (h : j + 1 < 8) :
    accMin x y b m (j + 1) = min (accMin x y b m j) (tileMin x y b ⟨j + 1, h⟩ m) := by
  show (if h : j + 1 < 8 then min (accMin x y b m j) (tileMin x y b ⟨j + 1, h⟩ m) else accMin x y b m j) = _
  rw [dif_pos h]

theorem le_accMin (x y : Cloud) (b : Fin 4) (m : Fin 4096) (c : EReal) (j : ℕ) (hj : j < 8) :
    (c ≤ accMin x y b m j ↔ c ≤ top ∧ ∀ n : Fin 4096, n.val < (j + 1) * 512 → c ≤ dist x y b n m) := by
  induction j with
  | zero =>
    show c ≤ tileMin x y b 0 m ↔ _
    rw [le_tileMin]
    constructor
    · rintro ⟨h0, h⟩
      refine ⟨h0, fun n hn => ?_⟩
      have hn' : n.val < 512 := by omega
      have := h ⟨n.val, hn'⟩
      have e : tileRow 0 ⟨n.val, hn'⟩ = n := Fin.ext (by rw [tileRow_val]; show 0 * 512 + n.val = n.val; omega)
      rwa [e] at this
    · rintro ⟨h0, h⟩
      refine ⟨h0, fun r => h _ ?_⟩
      rw [tileRow_val]; show 0 * 512 + r.val < _; have := r.isLt; omega
  | succ j ih =>
    have ih := ih (by omega)
    rw [accMin_succ x y b m j hj, le_min_iff, ih, le_tileMin]
    constructor
    · rintro ⟨⟨h0, h1⟩, -, h2⟩
      refine ⟨h0, fun n hn => ?_⟩
      by_cases hlt : n.val < (j + 1) * 512
      · exact h1 n hlt
      · have hr : n.val - (j + 1) * 512 < 512 := by omega
        have := h2 ⟨n.val - (j + 1) * 512, hr⟩
        have e : tileRow ⟨j + 1, hj⟩ ⟨n.val - (j + 1) * 512, hr⟩ = n :=
          Fin.ext (by rw [tileRow_val]; show (j + 1) * 512 + (n.val - (j + 1) * 512) = n.val; omega)
        rwa [e] at this
    · rintro ⟨h0, h⟩
      have h1 : ∀ n : Fin 4096, n.val < (j + 1) * 512 → c ≤ dist x y b n m := by
        intro n hn
        exact h n (lt_next_tile n.val j hn)
      have h2 : ∀ r : Fin 512, c ≤ dist x y b (tileRow ⟨j + 1, hj⟩ r) m := by
        intro r
        exact h (tileRow ⟨j + 1, hj⟩ r) (in_next_tile j r.val r.isLt)
      exact ⟨⟨h0, h1⟩, h0, h2⟩

/-- Joining the eight tiles' minima gives the minimum over all source points. -/
theorem accMin_last (x y : Cloud) (b : Fin 4) (m : Fin 4096) : accMin x y b m 7 = t2s x y b m := by
  refine eq_of_forall_le_iff fun c => ?_
  rw [le_accMin x y b m c 7 (by omega)]
  unfold t2s; rw [Finset.le_fold_min]
  constructor
  · rintro ⟨h0, h⟩; exact ⟨h0, fun n _ => h n (by omega)⟩
  · rintro ⟨h0, h⟩; exact ⟨h0, fun n _ => h n (Finset.mem_univ _)⟩

end Cert.Chamfer

end
-- ==== Proof.LibKeepdimsMin.lean ====
/-
  General reading lemmas for keepdims layouts and one-axis reductions at the ideal values, over any extents.

  * Casts that only add unit axes read the operand at the same coordinate: `[a] → [a, 1]`, `[a] → [1, a, 1]`.
  * A column `[a, 1]` broadcast along its unit axis to `[a, b]` reads, at `(p, c)`, the column at `p`.
  * The sum over the three lanes of an `[n, 3]` array at row `r` is the `Fin 3`-indexed sum of that row.
  * A `minimumf` reduction over ONE axis is, at each result index, the fold of `min` from the accumulator's value over
    that axis's coordinates (the counterpart of the library's statement for `maximumf`); for an `[a, b]` table from +∞:
    the minimum over the columns at a row, and the minimum over the rows at a column.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib.KeepdimsMin

open Idealize.ShloMosaic Idealize.ShloMosaic.ValueIdx

/-! ## Layout operations at coordinates -/

section Layout
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array cast to `[1, a, 1]` reads, at `(u, i, w)`, the operand at `i`. -/
theorem shapeCast_a_1a1_apply {a : ℕ} (x : (⟨1, ![a]⟩ : Shape).Idx → α) (h : (⟨1, ![a]⟩ : Shape).ShapeCasts ⟨3, ![1, a, 1]⟩)
    (u : Fin 1) (i : Fin a) (w : Fin 1) : shapeCast ⟨3, ![1, a, 1]⟩ x h (ix3 u i w) = x (ix1 i) :=
  shapeCast_apply x h _ _ (by
    have hu : u.val = 0 := by omega
    have hw : w.val = 0 := by omega
    rw [Shape.rowMajor_val_three, Shape.rowMajor_val_one]
    show i.val = (u.val * a + i.val) * 1 + w.val
    rw [hu, hw, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Reductions over one axis at coordinates -/

/-- The sum over the three lanes of an `[n, 3]` array, at row `r`. -/
theorem laneSum_apply {n : ℕ} (src : FVec Ideal ⟨2, ![n, 3]⟩ .f32) (h : (⟨2, ![n, 3]⟩ : Shape).Reduces [1] ⟨1, ![n]⟩)
    (hφ : FKind.Formats .f32) (hacc : (0x00000000#32 : BitVec 32) = FKind.add.neutral .f32 hφ) (r : Fin n) :
    multiReduction (F := Ideal) .add [1] ⟨1, ![n]⟩ src 0x00000000#32 h hφ hacc (ix1 r) = ∑ k : Fin 3, src (ix2 r k) := by
  refine (Ideal.multiReduction_add_single src _ h hφ hacc (ix1 r)).trans ?_
  refine Finset.sum_congr rfl fun k _ => congrArg src ?_
  funext c
  match c with
  | ⟨0, _⟩ => rfl
  | ⟨1, _⟩ => rfl

/-- A `minimumf` reduction over one axis: the fold of `min` from the accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction (F := Ideal) .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum over the columns of an `[a, b]` table, at row `r`. -/
theorem rowMin_apply {a b : ℕ} (src : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (r : Fin a) :
    multiReduction (F := Ideal) .minimumf [1] ⟨1, ![a]⟩ src 0x7F800000#32 h hφ hacc (ix1 r)
      = (Finset.univ : Finset (Fin b)).fold min (Ideal.ofBits .f32 0x7F800000#32) (fun c => src (ix2 r c)) := by
  refine (multiReduction_minimumf_single src _ h hφ hacc (ix1 r)).trans ?_
  refine congrArg (Finset.fold min _ · Finset.univ) (funext fun c => congrArg src ?_)
  funext d
  match d with
  | ⟨0, _⟩ => rfl
  | ⟨1, _⟩ => rfl

/-- The minimum over the rows of an `[a, b]` table, at column `c`. -/
theorem colMin_apply {a b : ℕ} (src : FVec Ideal ⟨2, ![a, b]⟩ .f32) (h : (⟨2, ![a, b]⟩ : Shape).Reduces [0] ⟨1, ![b]⟩)
    (hφ : FKind.Formats .f32) (hacc : (0x7F800000#32 : BitVec 32) = FKind.minimumf.neutral .f32 hφ) (c : Fin b) :
    multiReduction (F := Ideal) .minimumf [0] ⟨1, ![b]⟩ src 0x7F800000#32 h hφ hacc (ix1 c)
      = (Finset.univ : Finset (Fin a)).fold min (Ideal.ofBits .f32 0x7F800000#32) (fun r => src (ix2 r c)) := by
  refine (multiReduction_minimumf_single src _ h hφ hacc (ix1 c)).trans ?_
  refine congrArg (Finset.fold min _ · Finset.univ) (funext fun r => congrArg src ?_)
  funext d
  match d with
  | ⟨0, _⟩ => rfl
  | ⟨1, _⟩ => rfl

end Cert.Lib.KeepdimsMin

end
-- ==== Proof.Payload.lean ====
/-
  The kernel body's pure values read at an index.  Over one tile `x0 : [1, 512, 3]` of source points and the
  batch's target points `x1 : [1, 4096, 3]`, the body forms the table

      tileDist r m = (∑ₖ x0[0,r,k]² + ∑ₖ x1[0,m,k]²) − 2 · ∑ₖ x0[0,r,k]·x1[0,m,k]        (r < 512, m < 4096),

  its row minima (over `m`, from +∞) and its column minima (over `r`, from +∞), and joins the column minima with
  a stored running minimum.  Each payload is read here at explicit coordinates: the pointwise operations read
  through by definition, each layout operation (a cast that adds or drops unit axes, a broadcast of a column or
  a row, a transpose) reads its operand at the index with the same coordinates, a sum over the three lanes is a
  `Fin 3`-indexed sum, a minimum over an axis is the fold of `min` over that axis's coordinates, and the
  matrix product into a zero accumulator is the sum over the contracted coordinate.
-/
import proofs.«124588_j30124900614424_1_alg».proof.Proof.Spec
import proofs.«124588_j30124900614424_1_alg».proof.Proof.Gen.KernelIdeal.Skeleton
import proofs.«124588_j30124900614424_1_alg».proof.Proof.LibKeepdimsMin
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Lib.KeepdimsMin

/-! ## The matrix product at coordinates -/

/-- The kernel's dimension numbers: `[512, 3]` by `[3, 4096]`, contracting the left operand's axis 1 with the right's axis 0. -/
abbrev mmDims : DotDims S512x3 S3x4096 S512x4096 := dot_S512x3_S3x4096_S512x4096_1_0_0_1_n_n

theorem mm_lhs_0 (i : S512x4096.Idx) (q : mmDims.contr.Idx) : (mmDims.lhsIdx i q 0).val = (i 0).val := by
  unfold DotDims.lhsIdx
  rw [dif_neg (show ¬(0 : Fin S512x3.rank) ∈ mmDims.lhsBatch by decide),
    dif_pos (show (0 : Fin S512x3.rank) ∈ mmDims.lhsNonContracting by decide)]
  rfl
theorem mm_lhs_1 (i : S512x4096.Idx) (q : mmDims.contr.Idx) : (mmDims.lhsIdx i q 1).val = (q ⟨0, by decide⟩).val :=
  mmDims.lhsIdx_val_of_single rfl i q
theorem mm_rhs_0 (i : S512x4096.Idx) (q : mmDims.contr.Idx) : (mmDims.rhsIdx i q 0).val = (q ⟨0, by decide⟩).val :=
  mmDims.rhsIdx_val_of_single rfl i q
theorem mm_rhs_1 (i : S512x4096.Idx) (q : mmDims.contr.Idx) : (mmDims.rhsIdx i q 1).val = (i 1).val := by
  unfold DotDims.rhsIdx
  rw [dif_neg (show ¬(1 : Fin S3x4096.rank) ∈ mmDims.rhsBatch by decide),
    dif_pos (show (1 : Fin S3x4096.rank) ∈ mmDims.rhsNonContracting by decide)]
  rfl

/-- The product of a `[512, 3]` by a `[3, 4096]` matrix into a zero accumulator, at `(r, m)`: the sum over the three
    contracted coordinates of the products. -/
theorem matmul_zero_apply (lhs : FVec Ideal S512x3 .f32) (rhs : FVec Ideal S3x4096 .f32) (r : Fin 512) (mm : Fin 4096) :
    matmul (F := Ideal) mmDims none lhs rhs (constant (F := Ideal) S512x4096 .f32 0x00000000#32) (ix2 r mm)
      = ∑ k : Fin 3, lhs (ix2 r k) * rhs (ix2 k mm) := by
  simp only [matmul]
  rw [Ideal.matmul_constant_zero_apply, ← Equiv.sum_comp (contrEquiv1 mmDims 3 rfl rfl).symm]
  refine Finset.sum_congr rfl fun k _ => ?_
  have hk := contrEquiv1_symm_val mmDims 3 rfl rfl k
  have el : mmDims.lhsIdx (ix2 r mm) ((contrEquiv1 mmDims 3 rfl rfl).symm k) = ix2 r k := funext fun a => Fin.ext (by
    match a with
    | ⟨0, _⟩ => exact mm_lhs_0 _ _
    | ⟨1, _⟩ => exact (mm_lhs_1 _ _).trans hk)
  have er : mmDims.rhsIdx (ix2 r mm) ((contrEquiv1 mmDims 3 rfl rfl).symm k) = ix2 k mm := funext fun a => Fin.ext (by
    match a with
    | ⟨0, _⟩ => exact (mm_rhs_0 _ _).trans hk
    | ⟨1, _⟩ => exact mm_rhs_1 _ _)
  rw [el, er]

/-! ## The payloads at coordinates -/

/-- The expanded squared distance from point `r` of the source tile `x0` to target point `mm` of `x1`. -/
def tileDist (x0 : Vec Ideal S1x512x3 .f32) (x1 : Vec Ideal S1x4096x3 .f32) (r : Fin 512) (mm : Fin 4096) : EReal :=
  ((∑ k : Fin 3, x0 (ix3 (0 : Fin 1) r k) * x0 (ix3 (0 : Fin 1) r k))
      + (∑ k : Fin 3, x1 (ix3 (0 : Fin 1) mm k) * x1 (ix3 (0 : Fin 1) mm k)))
    - Cert.Chamfer.two * (∑ k : Fin 3, x0 (ix3 (0 : Fin 1) r k) * x1 (ix3 (0 : Fin 1) mm k))

/-- The squared norms of the points of a `[1, n, 3]` block, as the kernel forms them: the block as an `[n, 3]` matrix,
    squared entrywise and summed over the lanes. -/
theorem sqNorm_apply {n : ℕ} (x : Vec Ideal ⟨3, ![1, n, 3]⟩ .f32) (hc : (⟨3, ![1, n, 3]⟩ : Shape).ShapeCasts ⟨2, ![n, 3]⟩)
    (h : (⟨2, ![n, 3]⟩ : Shape).Reduces [1] ⟨1, ![n]⟩) (hφ : FKind.Formats .f32)
    (hacc : (0x00000000#32 : BitVec 32) = FKind.add.neutral .f32 hφ) (p : Fin n) :
    multiReduction (F := Ideal) .add [1] ⟨1, ![n]⟩
        (mulf (shapeCast ⟨2, ![n, 3]⟩ x hc : FVec Ideal ⟨2, ![n, 3]⟩ .f32) (shapeCast ⟨2, ![n, 3]⟩ x hc)) 0x00000000#32 h hφ hacc (ix1 p)
      = ∑ k : Fin 3, x (ix3 (0 : Fin 1) p k) * x (ix3 (0 : Fin 1) p k) := by
  refine (laneSum_apply _ h hφ hacc p).trans ?_
  refine Finset.sum_congr rfl fun k _ => ?_
  exact congrArg₂ (· * ·) (shapeCast_1ab_ab_apply x hc p k) (shapeCast_1ab_ab_apply x hc p k)

variable (x0 : Vec Ideal S1x512x3 .f32) (x1 : Vec Ideal S1x4096x3 .f32) (v : Vec Ideal S1x4096x1 .f32)

/-- The table of expanded squared distances, entry by entry. -/
theorem pay1_apply (r : Fin 512) (mm : Fin 4096) : k0_pay1 (F := Ideal) x0 x1 (ix2 r mm) = tileDist x0 x1 r mm := by
  unfold k0_pay1 tileDist Cert.Chamfer.two
  show (broadcastTo S512x4096 _ _ (ix2 r mm) + broadcastTo S512x4096 _ _ (ix2 r mm))
      - Ideal.ofBits .f32 0x40000000#32 * matmul (F := Ideal) mmDims none _ _ _ (ix2 r mm) = _
  refine congrArg₂ (· - ·) (congrArg₂ (· + ·) ?_ ?_) (congrArg (Ideal.ofBits .f32 0x40000000#32 * ·) ?_)
  · refine (broadcastTo_a1_ab_apply _ _ r mm).trans ?_
    refine (shapeCast_a_a1_apply _ _ r (0 : Fin 1)).trans ?_
    exact sqNorm_apply x0 _ _ _ _ r
  · refine (broadcastTo_1b_ab_apply _ _ r mm).trans ?_
    refine (shapeCast_a_1a_apply _ _ (0 : Fin 1) mm).trans ?_
    exact sqNorm_apply x1 _ _ _ _ mm
  · refine (matmul_zero_apply _ _ r mm).trans ?_
    refine Finset.sum_congr rfl fun k _ => ?_
    refine congrArg₂ (· * ·) (shapeCast_1ab_ab_apply x0 _ r k) ?_
    refine (transpose_ix2_apply _ _ k mm).trans ?_
    exact shapeCast_1ab_ab_apply x1 _ mm k

/-- The row minima: for each source point of the tile, the least distance to a target point. -/
theorem pay2_apply (r : Fin 512) :
    k0_pay2 (F := Ideal) x0 x1 (ix3 (0 : Fin 1) r (0 : Fin 1))
      = (Finset.univ : Finset (Fin 4096)).fold min Cert.Chamfer.top (fun mm => tileDist x0 x1 r mm) := by
  unfold k0_pay2 Cert.Chamfer.top
  show shapeCast S1x512x1 _ _ (ix3 (0 : Fin 1) r (0 : Fin 1)) = _
  refine (shapeCast_a_1a1_apply _ _ (0 : Fin 1) r (0 : Fin 1)).trans ?_
  refine (rowMin_apply _ _ _ _ r).trans ?_
  exact congrArg (Finset.fold min _ · Finset.univ) (funext fun mm => pay1_apply x0 x1 r mm)

/-- The column minima: for each target point, the least distance to a source point of the tile. -/
theorem pay3_apply (mm : Fin 4096) :
    k0_pay3 (F := Ideal) x0 x1 (ix1 mm)
      = (Finset.univ : Finset (Fin 512)).fold min Cert.Chamfer.top (fun r => tileDist x0 x1 r mm) := by
  unfold k0_pay3 Cert.Chamfer.top
  refine (colMin_apply _ _ _ _ mm).trans ?_
  exact congrArg (Finset.fold min _ · Finset.univ) (funext fun r => pay1_apply x0 x1 r mm)

/-- The column minima as a `[1, 4096, 1]` block. -/
theorem pay4_apply (mm : Fin 4096) :
    k0_pay4 (F := Ideal) x0 x1 (ix3 (0 : Fin 1) mm (0 : Fin 1))
      = (Finset.univ : Finset (Fin 512)).fold min Cert.Chamfer.top (fun r => tileDist x0 x1 r mm) := by
  unfold k0_pay4
  show shapeCast S1x4096x1 _ _ (ix3 (0 : Fin 1) mm (0 : Fin 1)) = _
  refine (shapeCast_a_1a1_apply _ _ (0 : Fin 1) mm (0 : Fin 1)).trans ?_
  exact pay3_apply x0 x1 mm

/-- The stored running minimum joined with the tile's column minima. -/
theorem pay5_apply (mm : Fin 4096) :
    k0_pay5 (F := Ideal) x0 x1 v (ix3 (0 : Fin 1) mm (0 : Fin 1))
      = min (v (ix3 (0 : Fin 1) mm (0 : Fin 1)))
          ((Finset.univ : Finset (Fin 512)).fold min Cert.Chamfer.top (fun r => tileDist x0 x1 r mm)) := by
  unfold k0_pay5
  show min (shapeCast S1x4096x1 v _ (ix3 (0 : Fin 1) mm (0 : Fin 1))) (shapeCast S1x4096x1 _ _ (ix3 (0 : Fin 1) mm (0 : Fin 1))) = _
  refine congrArg₂ min ?_ ?_
  · exact congrFun (shapeCast_self v _) _
  · refine (shapeCast_a_1a1_apply _ _ (0 : Fin 1) mm (0 : Fin 1)).trans ?_
    exact pay3_apply x0 x1 mm

end Cert.KernelIdeal.Payload

end
-- ==== Proof.BlockReads.lean ====
/-
  The kernel's four windows read at an index.  The grid is 4 × 8: point `t` works on batch `t / 8` and on tile `t % 8`
  of that batch's 4096 source points (eight tiles of 512).  A window's block at a point sits in its array, on each axis,
  at the block index times the block's extent plus the coordinate inside the block.  So

    * the source block `[1, 512, 3]` at `(0, r, k)` is the source cloud at `(t / 8, (t % 8) · 512 + r, k)`;
    * the target block `[1, 4096, 3]` at `(0, m, k)` is the target cloud at `(t / 8, m, k)`;
    * the first result's block `[1, 512, 1]` at `(0, r, 0)` is that array at `(t / 8, (t % 8) · 512 + r, 0)`, written back at
      every point, and these blocks cover the array;
    * the second result's block `[1, 4096, 1]` at `(0, m, 0)` is that array at `(t / 8, m, 0)`, written back at the last tile
      of each batch, and these four blocks cover the array.
-/
import proofs.«124588_j30124900614424_1_alg».proof.Proof.Spec
import proofs.«124588_j30124900614424_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx

variable {F : FTy → Type} [FloatOps F]
variable (m : (ℓ : Loc nD τ sig) → Buf (Elt F) ℓ) (c : Dev nD)

/-! ## The grid: batch and tile of a point -/

/-- The grid has 32 points. -/
theorem lt32 (t : Fin cfg0.N) : t.val < 32 := Nat.lt_of_lt_of_eq t.isLt N_0

/-- The batch point `t` works on. -/
def bt (t : Fin cfg0.N) : Fin 4 := ⟨t.val / 8, by have := lt32 t; omega⟩

/-- The tile of source points point `t` works on. -/
def tl (t : Fin cfg0.N) : Fin 8 := ⟨t.val % 8, Nat.mod_lt _ (by decide)⟩

theorem bt_val (t : Fin cfg0.N) : (bt t).val = t.val / 8 := rfl
theorem tl_val (t : Fin cfg0.N) : (tl t).val = t.val % 8 := rfl

/-! ## The block indices, decided once over the grid -/

/-- The source window's block index at point `t` is `(t / 8, t % 8, 0)`. -/
theorem idx0 : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, _)

/-- The target window's block index at point `t` is `(t / 8, 0, 0)`. -/
theorem idx1 : ∀ t : Fin cfg0.N, win0_1.index t (0 : Fin 3) = t.val / 8 ∧ win0_1.index t (1 : Fin 3) = 0
    ∧ win0_1.index t (2 : Fin 3) = 0 :=
  (by decide +kernel : ∀ t : Fin grid0.N, _)

/-- The first result window's block index at point `t` is `(t / 8, t % 8, 0)`. -/
theorem idx2 : ∀ t : Fin cfg0.N, win0_2.index t (0 : Fin 3) = t.val / 8 ∧ win0_2.index t (1 : Fin 3) = t.val % 8
    ∧ win0_2.index t (2 : Fin 3) = 0 :=
  (by decide +kernel : ∀ t : Fin grid0.N, _)

/-- The second result window's block index at point `t` is `(t / 8, 0, 0)`. -/
theorem idx3 : ∀ t : Fin cfg0.N, win0_3.index t (0 : Fin 3) = t.val / 8 ∧ win0_3.index t (1 : Fin 3) = 0
    ∧ win0_3.index t (2 : Fin 3) = 0 :=
  (by decide +kernel : ∀ t : Fin grid0.N, _)

/-! ## The input blocks -/

/-- The source block at `(0, r, k)` is the source cloud at batch `t / 8`, row `r` of tile `t % 8`, coordinate `k`. -/
theorem iblk0_apply (t : Fin cfg0.N) (r : Fin 512) (k : Fin 3) :
    (iblk m c 0 t : S1x512x3.Idx → Elt F .f32) (ix3 (0 : Fin 1) r k)
      = m ((c : Thread nD τ).loc main_arg0) (ix3 (bt t) (Cert.Chamfer.tileRow (tl t) r) k) := by
  obtain ⟨e0, e1, e2⟩ := idx0 t
  unfold iblk
  rw [View.read_apply]
  show V m c main_arg0 _ = m (c.tc.loc main_arg0) _
  unfold V
  congr 1
  funext a
  apply Fin.ext
  match a with
  | ⟨0, _⟩ => show win0_0.index t (0 : Fin 3) * 1 + 1 * ((0 : Fin 1) : Nat) = t.val / 8; rw [e0]; omega
  | ⟨1, _⟩ => show win0_0.index t (1 : Fin 3) * 512 + 1 * r.val = t.val % 8 * 512 + r.val; rw [e1]; omega
  | ⟨2, _⟩ => show win0_0.index t (2 : Fin 3) * 3 + 1 * k.val = k.val; rw [e2]; omega

/-- The target block at `(0, mm, k)` is the target cloud at batch `t / 8`, point `mm`, coordinate `k`. -/
theorem iblk1_apply (t : Fin cfg0.N) (mm : Fin 4096) (k : Fin 3) :
    (iblk m c 1 t : S1x4096x3.Idx → Elt F .f32) (ix3 (0 : Fin 1) mm k)
      = m ((c : Thread nD τ).loc main_arg1) (ix3 (bt t) mm k) := by
  obtain ⟨e0, e1, e2⟩ := idx1 t
  unfold iblk
  rw [View.read_apply]
  show V m c main_arg1 _ = m (c.tc.loc main_arg1) _
  unfold V
  congr 1
  funext a
  apply Fin.ext
  match a with
  | ⟨0, _⟩ => show win0_1.index t (0 : Fin 3) * 1 + 1 * ((0 : Fin 1) : Nat) = t.val / 8; rw [e0]; omega
  | ⟨1, _⟩ => show win0_1.index t (1 : Fin 3) * 4096 + 1 * mm.val = mm.val; rw [e1]; omega
  | ⟨2, _⟩ => show win0_1.index t (2 : Fin 3) * 3 + 1 * k.val = k.val; rw [e2]; omega

/-! ## The result blocks, read off any contents of their arrays -/

/-- The first result's block at `(0, r, 0)` is the array at batch `t / 8`, row `r` of tile `t % 8`. -/
theorem blk2_read (G : Buf (Elt F) ((cfg0.win 2).arr.view.loc (c.tc : Thread nD τ))) (t : Fin cfg0.N) (r : Fin 512) :
    (((cfg0.win 2).blk t).view.read (Elt F) G : S1x512x1.Idx → Elt F .f32) (ix3 (0 : Fin 1) r (0 : Fin 1))
      = (G : S4x4096x1.Idx → Elt F .f32) (ix3 (bt t) (Cert.Chamfer.tileRow (tl t) r) (0 : Fin 1)) := by
  obtain ⟨e0, e1, e2⟩ := idx2 t
  rw [View.read_apply]
  show (G : S4x4096x1.Idx → Elt F .f32) _ = (G : S4x4096x1.Idx → Elt F .f32) _
  congr 1
  funext a
  apply Fin.ext
  match a with
  | ⟨0, _⟩ => show win0_2.index t (0 : Fin 3) * 1 + 1 * ((0 : Fin 1) : Nat) = t.val / 8; rw [e0]; omega
  | ⟨1, _⟩ => show win0_2.index t (1 : Fin 3) * 512 + 1 * r.val = t.val % 8 * 512 + r.val; rw [e1]; omega
  | ⟨2, _⟩ => show win0_2.index t (2 : Fin 3) * 1 + 1 * ((0 : Fin 1) : Nat) = ((0 : Fin 1) : Nat); rw [e2]; omega

/-- The second result's block at `(0, mm, 0)` is the array at batch `t / 8`, point `mm`. -/
theorem blk3_read (G : Buf (Elt F) ((cfg0.win 3).arr.view.loc (c.tc : Thread nD τ))) (t : Fin cfg0.N) (mm : Fin 4096) :
    (((cfg0.win 3).blk t).view.read (Elt F) G : S1x4096x1.Idx → Elt F .f32) (ix3 (0 : Fin 1) mm (0 : Fin 1))
      = (G : S4x4096x1.Idx → Elt F .f32) (ix3 (bt t) mm (0 : Fin 1)) := by
  obtain ⟨e0, e1, e2⟩ := idx3 t
  rw [View.read_apply]
  show (G : S4x4096x1.Idx → Elt F .f32) _ = (G : S4x4096x1.Idx → Elt F .f32) _
  congr 1
  funext a
  apply Fin.ext
  match a with
  | ⟨0, _⟩ => show win0_3.index t (0 : Fin 3) * 1 + 1 * ((0 : Fin 1) : Nat) = t.val / 8; rw [e0]; omega
  | ⟨1, _⟩ => show win0_3.index t (1 : Fin 3) * 4096 + 1 * mm.val = mm.val; rw [e1]; omega
  | ⟨2, _⟩ => show win0_3.index t (2 : Fin 3) * 1 + 1 * ((0 : Fin 1) : Nat) = ((0 : Fin 1) : Nat); rw [e2]; omega

/-! ## The written-back blocks cover the result arrays -/

/-- An index of the first result array is in point `t`'s block iff each coordinate is in the block's range on its axis. -/
theorem mem_blk2 (t : Fin cfg0.N) (i : S4x4096x1.Idx) :
    i ∈ ((cfg0.win 2).blk t).view.set ↔ ∀ a : Fin 3, win0_2.index t a * S1x512x1.size a ≤ (i a).val
      ∧ (i a).val < win0_2.index t a * S1x512x1.size a + S1x512x1.size a := by
  show i ∈ ((View.whole main_v0_0).slice (win0_2.rect t)).set ↔ _
  rw [View.set_slice_whole, Rect.mem_set_unit]
  exact Iff.rfl

/-- An index of the second result array is in point `t`'s block iff each coordinate is in the block's range on its axis. -/
theorem mem_blk3 (t : Fin cfg0.N) (i : S4x4096x1.Idx) :
    i ∈ ((cfg0.win 3).blk t).view.set ↔ ∀ a : Fin 3, win0_3.index t a * S1x4096x1.size a ≤ (i a).val
      ∧ (i a).val < win0_3.index t a * S1x4096x1.size a + S1x4096x1.size a := by
  show i ∈ ((View.whole main_v0_1).slice (win0_3.rect t)).set ↔ _
  rw [View.set_slice_whole, Rect.mem_set_unit]
  exact Iff.rfl

/-- Every index `(b, n, 0)` of the first result array is in the block of point `8 b + n / 512`, which writes back. -/
theorem cover2 (i : S4x4096x1.Idx) :
    ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 1 := (i 2).isLt
  obtain ⟨t, ht⟩ : ∃ t : Fin cfg0.N, t.val = 8 * (i 0).val + (i 1).val / 512 :=
    ⟨⟨8 * (i 0).val + (i 1).val / 512, Nat.lt_of_lt_of_eq (by omega) N_0.symm⟩, rfl⟩
  obtain ⟨e0, e1, e2⟩ := idx2 t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1 ≤ (i 2).val ∧ (i 2).val < win0_2.index t (2 : Fin 3) * 1 + 1; omega

/-- Every index `(b, m, 0)` of the second result array is in the block of point `8 b + 7`, the batch's last tile, which
    writes back. -/
theorem cover3 (i : S4x4096x1.Idx) :
    ∃ t : Fin cfg0.N, (cfg0.win 3).flush t = true ∧ i ∈ ((cfg0.win 3).blk t).view.set := by
  have h0 : (i 0).val < 4 := (i 0).isLt
  have h1 : (i 1).val < 4096 := (i 1).isLt
  have h2 : (i 2).val < 1 := (i 2).isLt
  obtain ⟨t, ht⟩ : ∃ t : Fin cfg0.N, t.val = 8 * (i 0).val + 7 :=
    ⟨⟨8 * (i 0).val + 7, Nat.lt_of_lt_of_eq (by omega) N_0.symm⟩, rfl⟩
  obtain ⟨e0, e1, e2⟩ := idx3 t
  refine ⟨t, (flush0_3 t).mpr (by omega), ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 4096 ≤ (i 1).val ∧ (i 1).val < win0_3.index t (1 : Fin 3) * 4096 + 4096; omega
  | ⟨2, _⟩ => show win0_3.index t (2 : Fin 3) * 1 ≤ (i 2).val ∧ (i 2).val < win0_3.index t (2 : Fin 3) * 1 + 1; omega

end Cert.KernelIdeal.Blocks

end
-- ==== Proof.ClosedForm.lean ====
/-
  The kernel's per-point values in closed form.  At point `t` the source block is tile `t % 8` of batch `t / 8` of the
  source cloud `X` and the target block is batch `t / 8` of the target cloud `Y`; so the body's table of expanded squared
  distances is `dist X Y (t / 8) ((t % 8) · 512 + r) m`, its row minima are the source-to-target minima of those source
  points, its column minima are the tile's minima `tileMin`, and the running column minima after point `n` are the
  minima joined over the tiles `0 … n % 8` of batch `n / 8`.
-/
import proofs.«124588_j30124900614424_1_alg».proof.Proof.Pieces
import proofs.«124588_j30124900614424_1_alg».proof.Proof.Payload
import proofs.«124588_j30124900614424_1_alg».proof.Proof.BlockReads
import proofs.«124588_j30124900614424_1_alg».proof.Proof.Spec

noncomputable section

namespace Cert.KernelIdeal.Closed

open Cert.KernelIdeal Cert.KernelIdeal.Gen Cert.KernelIdeal.Pieces Cert.KernelIdeal.Payload Cert.KernelIdeal.Blocks
open Idealize.ShloMosaic Idealize.ShloMosaic.TcCoe Idealize.ShloMosaic.ValueIdx

variable (m : (ℓ : Loc nD τ sig) → Buf (Elt Ideal) ℓ) (c : Dev nD)

/-- The source cloud. -/
abbrev X : Cert.Chamfer.Cloud := m ((c : Thread nD τ).loc main_arg0)
/-- The target cloud. -/
abbrev Y : Cert.Chamfer.Cloud := m ((c : Thread nD τ).loc main_arg1)

/-! ## Arithmetic of points, batches and tiles -/

theorem succ_mod_lt (n : ℕ) (h0 : ¬ (n + 1) % 8 = 0) : n % 8 + 1 < 8 := by omega
theorem succ_mod_eq (n : ℕ) (h0 : ¬ (n + 1) % 8 = 0) : (n + 1) % 8 = n % 8 + 1 := by omega
theorem succ_div_eq (n : ℕ) (h0 : ¬ (n + 1) % 8 = 0) : n / 8 = (n + 1) / 8 := by omega

/-! ## The table, its row minima and its column minima -/

/-- The body's table at point `t`: entry `(r, mm)` is the expanded squared distance from source point `r` of tile `t % 8`
    to target point `mm`, in batch `t / 8`. -/
theorem tileDist_eq (t : Fin cfg0.N) (r : Fin 512) (mm : Fin 4096) :
    tileDist (iblk m c 0 t) (iblk m c 1 t) r mm
      = Cert.Chamfer.dist (X m c) (Y m c) (bt t) (Cert.Chamfer.tileRow (tl t) r) mm := by
  unfold tileDist Cert.Chamfer.dist Cert.Chamfer.sq Cert.Chamfer.dot
  refine congrArg₂ (· - ·) (congrArg₂ (· + ·) ?_ ?_) (congrArg (Cert.Chamfer.two * ·) ?_)
  · exact Finset.sum_congr rfl fun k _ => congrArg₂ (· * ·) (iblk0_apply m c t r k) (iblk0_apply m c t r k)
  · exact Finset.sum_congr rfl fun k _ => congrArg₂ (· * ·) (iblk1_apply m c t mm k) (iblk1_apply m c t mm k)
  · exact Finset.sum_congr rfl fun k _ => congrArg₂ (· * ·) (iblk0_apply m c t r k) (iblk1_apply m c t mm k)

/-- The row minima at point `t`: for source point `r` of the tile, its least distance to a target point. -/
theorem rows_apply (t : Fin cfg0.N) (r : Fin 512) :
    k0_pay2 (F := Ideal) (iblk m c 0 t) (iblk m c 1 t) (ix3 (0 : Fin 1) r (0 : Fin 1))
      = Cert.Chamfer.s2t (X m c) (Y m c) (bt t) (Cert.Chamfer.tileRow (tl t) r) := by
  refine (pay2_apply (iblk m c 0 t) (iblk m c 1 t) r).trans ?_
  unfold Cert.Chamfer.s2t
  exact congrArg (Finset.fold min _ · Finset.univ) (funext fun mm => tileDist_eq m c t r mm)

/-- The column minima at point `t` are the tile's minima. -/
theorem tileFold_eq (t : Fin cfg0.N) (mm : Fin 4096) :
    (Finset.univ : Finset (Fin 512)).fold min Cert.Chamfer.top (fun r => tileDist (iblk m c 0 t) (iblk m c 1 t) r mm)
      = Cert.Chamfer.tileMin (X m c) (Y m c) (bt t) (tl t) mm := by
  unfold Cert.Chamfer.tileMin
  exact congrArg (Finset.fold min _ · Finset.univ) (funext fun r => tileDist_eq m c t r mm)

/-! ## The running column minima -/

/-- After point `n` the running column minima are the minima joined over tiles `0 … n % 8` of batch `n / 8`: a batch's
    first tile starts them at its own minima, each later tile joins its own in. -/
theorem colAcc_apply : ∀ (n : ℕ) (h : n < cfg0.N) (mm : Fin 4096),
    colAcc m c n h (ix3 (0 : Fin 1) mm (0 : Fin 1)) = Cert.Chamfer.accMin (X m c) (Y m c) (bt ⟨n, h⟩) mm (n % 8)
  | 0, h, mm => by
    show k0_pay4 (F := Ideal) (iblk m c 0 ⟨0, h⟩) (iblk m c 1 ⟨0, h⟩) (ix3 (0 : Fin 1) mm (0 : Fin 1)) = _
    refine (pay4_apply (iblk m c 0 ⟨0, h⟩) (iblk m c 1 ⟨0, h⟩) mm).trans ?_
    refine (tileFold_eq m c ⟨0, h⟩ mm).trans ?_
    rfl
  | n + 1, h, mm => by
    have ih := colAcc_apply n (Nat.lt_of_succ_lt h) mm
    by_cases h0 : (n + 1) % 8 = 0
    · have e : colAcc m c (n + 1) h = k0_pay4 (iblk m c 0 ⟨n + 1, h⟩) (iblk m c 1 ⟨n + 1, h⟩) := by
        show (if (n + 1) % 8 = 0 then _ else _) = _
        rw [if_pos h0]
      rw [e]
      refine (pay4_apply (iblk m c 0 ⟨n + 1, h⟩) (iblk m c 1 ⟨n + 1, h⟩) mm).trans ?_
      refine (tileFold_eq m c ⟨n + 1, h⟩ mm).trans ?_
      have htl : tl ⟨n + 1, h⟩ = (0 : Fin 8) := Fin.ext h0
      rw [htl, h0]
      rfl
    · have e : colAcc m c (n + 1) h
          = k0_pay5 (iblk m c 0 ⟨n + 1, h⟩) (iblk m c 1 ⟨n + 1, h⟩) (colAcc m c n (Nat.lt_of_succ_lt h)) := by
        show (if (n + 1) % 8 = 0 then _ else _) = _
        rw [if_neg h0]
      rw [e]
      refine (pay5_apply (iblk m c 0 ⟨n + 1, h⟩) (iblk m c 1 ⟨n + 1, h⟩) (colAcc m c n (Nat.lt_of_succ_lt h)) mm).trans ?_
      refine (congrArg₂ min ih (tileFold_eq m c ⟨n + 1, h⟩ mm)).trans ?_
      have hlt : n % 8 + 1 < 8 := succ_mod_lt n h0
      have hmod : (n + 1) % 8 = n % 8 + 1 := succ_mod_eq n h0
      have hbt : bt ⟨n, Nat.lt_of_succ_lt h⟩ = bt ⟨n + 1, h⟩ := Fin.ext (succ_div_eq n h0)
      have htl : tl ⟨n + 1, h⟩ = ⟨n % 8 + 1, hlt⟩ := Fin.ext hmod
      rw [hbt, htl, hmod, Cert.Chamfer.accMin_succ _ _ _ _ _ hlt]

end Cert.KernelIdeal.Closed

end
-- ==== Proof.Tail.lean ====
/-
  What both programs do with the two tables of minima: the mean over each batch's 4096 entries of either table, the
  two means added batch by batch, and the mean of the four sums.  It is one term, applied by either program to its
  own two tables, so the two results agree as soon as the tables do; the term is never opened.
-/
import Idealize.ShloMosaic.PureOps

noncomputable section

namespace Cert.Chamfer

open Idealize.ShloMosaic

variable {F : FTy → Type} [FloatOps F]

/-- The host lines after the minima, as a function of the two [4, 4096] tables (the shape facts are the programs' own). -/
def tail (h1 : (⟨2, ![4, 4096]⟩ : Shape).ReducesTo [1] ⟨1, ![4]⟩) (h0 : 0 < (⟨0, ![]⟩ : Shape).numel)
    (hb : (⟨0, ![]⟩ : Shape).BroadcastsInDim ⟨1, ![4]⟩ (![] : Fin 0 → Fin (⟨1, ![4]⟩ : Shape).rank))
    (h2 : (⟨1, ![4]⟩ : Shape).ReducesTo [0] ⟨0, ![]⟩)
    (S T : (⟨⟨2, ![4, 4096]⟩, .f32⟩ : BufTy).Contents (Elt F)) : (⟨⟨0, ![]⟩, .f32⟩ : BufTy).Contents (Elt F) :=
  Host.divf (Host.reduceAdd (addf
      (Host.divf (Host.reduceAdd S (constant ⟨0, ![]⟩ .f32 0x00000000#32) h1 h0) (broadcastInDim ⟨1, ![4]⟩ ![] hb (constant ⟨0, ![]⟩ .f32 0x45800000#32)))
      (Host.divf (Host.reduceAdd T (constant ⟨0, ![]⟩ .f32 0x00000000#32) h1 h0) (broadcastInDim ⟨1, ![4]⟩ ![] hb (constant ⟨0, ![]⟩ .f32 0x45800000#32))))
    (constant ⟨0, ![]⟩ .f32 0x00000000#32) h2 h0) (constant ⟨0, ![]⟩ .f32 0x40800000#32)

end Cert.Chamfer

end
-- ==== Proof.TailRead.lean ====
/-
  What the program's last host lines hold at their result: after the region the two tables of minima
  (each `[4, 4096, 1]`) are read as `[4, 4096]` tables, each is averaged over its 4096 entries batch by batch,
  the two averages are added and the four sums averaged.  The lines are read off one after another; what is
  left is one function of the two tables as the region leaves them, whatever the region's proof data.
-/
import proofs.«124588_j30124900614424_1_alg».proof.Proof.Tail
import proofs.«124588_j30124900614424_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.TailRead

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F]

/-- A `[4, 4096, 1]` table read as a `[4, 4096]` one: the same entries in row-major order. -/
def reshape41 (x : S4x4096x1.Idx → Elt F .f32) : S4x4096.Idx → Elt F .f32 :=
  shapeCast S4x4096 x shapeCasts_S4x4096x1_S4x4096

/-- Entry `(b, n)` of the `[4, 4096]` table is entry `(b, n, 0)` of the `[4, 4096, 1]` one. -/
theorem reshape41_apply (x : S4x4096x1.Idx → Elt F .f32) (b : Fin 4) (n : Fin 4096) :
    reshape41 x (ix2 b n) = x (ix3 b n (0 : Fin 1)) :=
  shapeCast_apply x _ _ _ (by
    rw [Shape.rowMajor_val_three, Shape.rowMajor_val_two]
    show (b.val * 4096 + n.val) * 1 + 0 = b.val * 4096 + n.val
    rw [Nat.mul_one, Nat.add_zero])

variable (m : (ℓ : Loc nD τ sig) → Buf (Elt F) ℓ)
  (dats : (p : Fin 1) → (c : Dev nD) → Dat τ (Elt F) Unit ℕ (UR sig nD τ) ℕ (cfgs p) c) (c : Dev nD)

/-- The program's result: the mean over the batches of the two tables' batch means added, the tables read as
    `[4, 4096]` off the region's two output arrays as the region leaves them. -/
theorem tail_read :
    Pipeline.afterTail₀ cfgs dats 0 (V0 m) [hostOps1] c main_v11
      = Cert.Chamfer.tail reducesTo_S4x4096_S4_d1 h_S_ bcast_S_S4 reducesTo_S4_S_d0
          (reshape41 ((dats 0 c).arrAt 2 cfg0.N)) (reshape41 ((dats 0 c).arrAt 3 cfg0.N)) := by
  unfold Pipeline.afterTail₀
  show StableHlo.after hostOps1 _ (Proc.devRef .tc main_v11) = _
  after_results
  have e2 : Pipeline.withArrays (cfgs 0).spec c (V0 m c) (fun w => (dats 0 c).arrAt w (cfgs 0).N) (Proc.devRef .tc main_v0_0)
      = (dats 0 c).arrAt 2 cfg0.N := Pipeline.withArrays_arr spec0 launch0.win.arr_inj c _ _ 2
  have e3 : Pipeline.withArrays (cfgs 0).spec c (V0 m c) (fun w => (dats 0 c).arrAt w (cfgs 0).N) (Proc.devRef .tc main_v0_1)
      = (dats 0 c).arrAt 3 cfg0.N := Pipeline.withArrays_arr spec0 launch0.win.arr_inj c _ _ 3
  rw [e2, e3]
  unfold Cert.Chamfer.tail reshape41
  rfl

end Cert.KernelIdeal.TailRead

end
-- ==== Proof.Tables.lean ====
/-
  The two tables of minima as contents of a [4, 4096, 1] array: entry (b, n, 0) of the first is the least distance
  from source point n of batch b to a target point, entry (b, m, 0) of the second the least distance from target
  point m to a source point.
-/
import proofs.«124588_j30124900614424_1_alg».proof.Proof.Spec

noncomputable section

namespace Cert.Chamfer

open Idealize.ShloMosaic Idealize.ShloMosaic.ValueIdx

/-- Source-to-target minima, laid out as [4, 4096, 1]. -/
def s2tTable (x y : Cloud) : (⟨3, ![4, 4096, 1]⟩ : Shape).Idx → EReal := fun i => s2t x y (i 0) (i 1)
/-- Target-to-source minima, laid out as [4, 4096, 1]. -/
def t2sTable (x y : Cloud) : (⟨3, ![4, 4096, 1]⟩ : Shape).Idx → EReal := fun i => t2s x y (i 0) (i 1)

theorem s2tTable_apply (x y : Cloud) (b : Fin 4) (n : Fin 4096) (z : Fin 1) : s2tTable x y (ix3 b n z) = s2t x y b n := rfl
theorem t2sTable_apply (x y : Cloud) (b : Fin 4) (m : Fin 4096) (z : Fin 1) : t2sTable x y (ix3 b m z) = t2s x y b m := rfl

end Cert.Chamfer

end
-- ==== Proof.KernelValue.lean ====
/-
  What the idealized kernel computes.  Every point writes its tile's row minima back into the first output array, and
  the rows of the 32 tiles tile that array: it ends holding, at (b, n, 0), the least distance from source point n of
  batch b to a target point.  The second output's block is written back only after a batch's last tile, when the
  running column minima have joined all eight tiles; the four batches' blocks tile that array, and joining the
  eight tiles' minima is the minimum over all source points: it ends holding, at (b, m, 0), the least distance from
  target point m to a source point.  The host lines after the region turn the two tables into the result.
-/
import proofs.«124588_j30124900614424_1_alg».proof.Proof.ClosedForm
import proofs.«124588_j30124900614424_1_alg».proof.Proof.TailRead
import proofs.«124588_j30124900614424_1_alg».proof.Proof.Tables
import Idealize.ShloMosaic.Lib.Pipeline.Value

set_option maxRecDepth 16384

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body Cert.KernelIdeal.Pieces Cert.KernelIdeal.Blocks
open Cert.KernelIdeal.Closed Cert.KernelIdeal.TailRead

variable (m : (ℓ : Loc nD τ sig) → Buf (Elt Ideal) ℓ) (ρ : Dev nD → PrngReg)

/-- The first output array's final contents on core `c`. -/
abbrev rowsTable (c : Dev nD) : S4x4096x1.Idx → EReal := Cert.Chamfer.s2tTable (X m c) (Y m c)
/-- The second output array's final contents on core `c`. -/
abbrev colsTable (c : Dev nD) : S4x4096x1.Idx → EReal := Cert.Chamfer.t2sTable (X m c) (Y m c)

/-- What point `t` writes back into the first output array is its block of the table of row minima. -/
theorem flushed2_eq (c : Dev nD) (t : Fin cfg0.N) :
    (dats m 0 c).flushed 2 t = ((cfg0.win 2).blk t).view.read (Elt Ideal) (rowsTable m c) := by
  funext y
  obtain ⟨z0, r, z1, rfl⟩ : ∃ (z0 : Fin 1) (r : Fin 512) (z1 : Fin 1), y = ix3 z0 r z1 := ⟨y 0, y 1, y 2, eq_ix3 y⟩
  obtain rfl : z0 = 0 := Subsingleton.elim _ _
  obtain rfl : z1 = 0 := Subsingleton.elim _ _
  refine Eq.trans ?_ (blk2_read (F := Ideal) c (rowsTable m c) t r).symm
  show (cfg0.win 2).cut (grid0.coords t) ((dats m 0 c).after 2 t) (ix3 (0 : Fin 1) r (0 : Fin 1)) = _
  rw [after_2, rows2_eq]
  exact rows_apply m c t r

/-- So the first output array ends holding the table of row minima. -/
theorem final2 (c : Dev nD) : (dats m 0 c).arrAt 2 cfg0.N = rowsTable m c :=
  (dats m 0 c).arrAt_eq_of_cover 2 (rowsTable m c) (fun t _ => flushed2_eq m c t) (fun i => cover2 i)

/-- What a batch's last tile writes back into the second output array is its block of the table of column minima. -/
theorem flushed3_eq (c : Dev nD) (t : Fin cfg0.N) (hf : (cfg0.win 3).flush t = true) :
    (dats m 0 c).flushed 3 t = ((cfg0.win 3).blk t).view.read (Elt Ideal) (colsTable m c) := by
  have h7 : t.val % 8 = 7 := (flush0_3 t).mp hf
  funext y
  obtain ⟨z0, mm, z1, rfl⟩ : ∃ (z0 : Fin 1) (mm : Fin 4096) (z1 : Fin 1), y = ix3 z0 mm z1 := ⟨y 0, y 1, y 2, eq_ix3 y⟩
  obtain rfl : z0 = 0 := Subsingleton.elim _ _
  obtain rfl : z1 = 0 := Subsingleton.elim _ _
  refine Eq.trans ?_ (blk3_read (F := Ideal) c (colsTable m c) t mm).symm
  show (cfg0.win 3).cut (grid0.coords t) ((dats m 0 c).after 3 t) (ix3 (0 : Fin 1) mm (0 : Fin 1)) = _
  rw [after_3, acc3_eq]
  refine (colAcc_apply m c t.val t.isLt mm).trans ?_
  rw [h7]
  exact Cert.Chamfer.accMin_last (X m c) (Y m c) (bt t) mm

/-- So the second output array ends holding the table of column minima. -/
theorem final3 (c : Dev nD) : (dats m 0 c).arrAt 3 cfg0.N = colsTable m c :=
  (dats m 0 c).arrAt_eq_of_cover 3 (colsTable m c) (fun t hf => flushed3_eq m c t hf) (fun i => cover3 i)

/-- The run, read: the result is the host lines' term of the two tables, the arguments unchanged. -/
theorem run : θ_run defs (onTc (τ := τ) (main (F := Ideal))) ⟨m, fun _ => 0, ρ⟩ fun r => ∀ c : Dev nD,
      r.2.mem ((c.tc : Thread nD τ).loc main_v11)
        = Cert.Chamfer.tail reducesTo_S4x4096_S4_d1 h_S_ bcast_S_S4 reducesTo_S4_S_d0 (reshape41 (F := Ideal) (rowsTable m c)) (reshape41 (F := Ideal) (colsTable m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v11 (by decide)).trans ((tail_read m (dats m) c).trans (by rw [final2, final3])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.RefValue.lean ====
/-
  The reference program read at an index.  Its distance stage `v12` at `(b, n, m)` is the expanded squared distance
  `(∑ₖ x[b,n,k]² + ∑ₖ y[b,m,k]²) − 2 · ∑ₖ x[b,n,k]·y[b,m,k]`; its two minimum stages are the folds of `min` from +∞
  over the last axis (`v13`: for each source point the nearest target) and over the middle axis (`v17`: for each
  target point the nearest source).
-/
import proofs.«124588_j30124900614424_1_alg».proof.Proof.Spec
import proofs.«124588_j30124900614424_1_alg».proof.Proof.Gen.ReferenceIdeal.Read

noncomputable section

namespace Cert.ReferenceIdeal.RefValue

open Cert.ReferenceIdeal Cert.ReferenceIdeal.Gen Idealize.ShloMosaic Idealize.ShloMosaic.ValueIdx

variable (x0 x1 : (⟨S4x4096x3, .f32⟩ : BufTy).Contents (Elt Ideal))

/-! ## Where each stage reads its operand, at `(b, n, m)` -/

/-- The source's squared norm is read along `(b, n, ·)`. -/
theorem idx_sq_src (b : Fin 4) (n m : Fin 4096) (k : Fin 3) :
    Read.idx_main_v1 (Read.idx_main_v5 (Read.idx_main_v7 (ix3 b n m))) k = ix3 b n k :=
  funext fun a => Fin.ext (by match a with | ⟨0, _⟩ => rfl | ⟨1, _⟩ => rfl | ⟨2, _⟩ => rfl)

/-- The target's squared norm is read along `(b, m, ·)`. -/
theorem idx_sq_tgt (b : Fin 4) (n m : Fin 4096) (k : Fin 3) :
    Read.idx_main_v3 (Read.idx_main_v6 (Read.idx_main_v8 (ix3 b n m))) k = ix3 b m k :=
  funext fun a => Fin.ext (by match a with | ⟨0, _⟩ => rfl | ⟨1, _⟩ => rfl | ⟨2, _⟩ => rfl)

/-- The inner product's left factor is read along `(b, n, ·)`. -/
theorem idx_dot_l (b : Fin 4) (n m : Fin 4096) (k : Fin 3) :
    Read.lidx_main_v4 (ix3 b n m) k = ix3 b n k :=
  funext fun a => Fin.ext (by match a with | ⟨0, _⟩ => rfl | ⟨1, _⟩ => rfl | ⟨2, _⟩ => rfl)

/-- The inner product's right factor is read along `(b, m, ·)`. -/
theorem idx_dot_r (b : Fin 4) (n m : Fin 4096) (k : Fin 3) :
    Read.ridx_main_v4 (ix3 b n m) k = ix3 b m k :=
  funext fun a => Fin.ext (by match a with | ⟨0, _⟩ => rfl | ⟨1, _⟩ => rfl | ⟨2, _⟩ => rfl)

/-- The distance stage at `(b, n, m)` is the expanded squared distance. -/
theorem ref_dist (b : Fin 4) (n m : Fin 4096) :
    Read.val_main_v12 (F := Ideal) x0 x1 (ix3 b n m) = Cert.Chamfer.dist x0 x1 b n m := by
  rw [Read.val_main_v12_apply, Read.val_main_v9_apply, Read.val_main_v11_apply, Read.val_main_v7_apply,
    Read.val_main_v8_apply, Read.val_main_v5_apply, Read.val_main_v6_apply, Read.val_main_v1_apply,
    Read.val_main_v3_apply, Read.val_main_v10_apply, Read.val_main_v4_apply, Read.val_main_cst_apply,
    Read.val_main_cst_0_apply, Read.val_main_cst_1_apply]
  simp only [Read.val_main_v0_apply, Read.val_main_v2_apply, idx_sq_src, idx_sq_tgt, idx_dot_l, idx_dot_r,
    Ideal.ofBits_def, Ideal.addf_def, Ideal.subf_def, Ideal.mulf_def, Ideal.ofBits_zero_f32, zero_add]
  rfl

/-! ## The two minimum stages -/

/-- Result index `(b, n)` with coordinate `m` put back on the last axis is `(b, n, m)`. -/
theorem lift_last (h : S4x4096x4096.Reduces [2] S4x4096) (b : Fin 4) (n m : Fin 4096) :
    h.lift (ix2 b n) m = ix3 b n m :=
  funext fun a => Fin.ext (by match a with | ⟨0, _⟩ => rfl | ⟨1, _⟩ => rfl | ⟨2, _⟩ => rfl)

/-- Result index `(b, m)` with coordinate `n` put back on the middle axis is `(b, n, m)`. -/
theorem lift_mid (h : S4x4096x4096.Reduces [1] S4x4096) (b : Fin 4) (n m : Fin 4096) :
    h.lift (ix2 b m) n = ix3 b n m :=
  funext fun a => Fin.ext (by match a with | ⟨0, _⟩ => rfl | ⟨1, _⟩ => rfl | ⟨2, _⟩ => rfl)

/-- Source to target: the minimum over the last axis is, for each source point, the least distance to a target. -/
theorem ref_s2t (b : Fin 4) (n : Fin 4096) :
    Read.val_main_v13 (F := Ideal) x0 x1 (ix2 b n) = Cert.Chamfer.s2t x0 x1 b n := by
  have h : S4x4096x4096.Reduces [2] S4x4096 := by decide
  unfold Read.val_main_v13
  rw [Host.reduce_eq_fold_single FloatOps.minimumf _ _ reducesTo_S4x4096x4096_S4x4096_d2 h h_S_ (ix2 b n)]
  have e : (Read.val_main_v12 (F := Ideal) x0 x1 ∘ h.lift (ix2 b n)) = fun m : Fin 4096 => Cert.Chamfer.dist x0 x1 b n m :=
    funext fun m : Fin 4096 => by
      show Read.val_main_v12 (F := Ideal) x0 x1 (h.lift (ix2 b n) m) = _
      rw [lift_last h b n m]
      exact ref_dist x0 x1 b n m
  rw [e]
  rfl

/-- Target to source: the minimum over the middle axis is, for each target point, the least distance to a source. -/
theorem ref_t2s (b : Fin 4) (m : Fin 4096) :
    Read.val_main_v17 (F := Ideal) x0 x1 (ix2 b m) = Cert.Chamfer.t2s x0 x1 b m := by
  have h : S4x4096x4096.Reduces [1] S4x4096 := by decide
  unfold Read.val_main_v17
  rw [Host.reduce_eq_fold_single FloatOps.minimumf _ _ reducesTo_S4x4096x4096_S4x4096_d1 h h_S_ (ix2 b m)]
  have e : (Read.val_main_v12 (F := Ideal) x0 x1 ∘ h.lift (ix2 b m)) = fun n : Fin 4096 => Cert.Chamfer.dist x0 x1 b n m :=
    funext fun n : Fin 4096 => by
      show Read.val_main_v12 (F := Ideal) x0 x1 (h.lift (ix2 b m) n) = _
      rw [lift_mid h b n m]
      exact ref_dist x0 x1 b n m
  rw [e]
  rfl

end Cert.ReferenceIdeal.RefValue

end
-- ==== Proof.Bridge.lean ====
/-
  The reference's stages against the two tables of minima.  Its two minimum stages are the tables read as
  `[4, 4096]` arrays (entry `(b, n)` of either stage is entry `(b, n, 0)` of the table), and its result is the
  common tail of host lines applied to those two arrays.
-/
import proofs.«124588_j30124900614424_1_alg».proof.Proof.Tables
import proofs.«124588_j30124900614424_1_alg».proof.Proof.RefValue
import proofs.«124588_j30124900614424_1_alg».proof.Proof.TailRead
import proofs.«124588_j30124900614424_1_alg».proof.Proof.Tail
import proofs.«124588_j30124900614424_1_alg».proof.Proof.Gen.ReferenceIdeal.Read

noncomputable section

namespace Cert.Proof.Bridge

open Idealize.ShloMosaic Idealize.ShloMosaic.ValueIdx

variable (x y : (⟨Cert.ReferenceIdeal.S4x4096x3, .f32⟩ : BufTy).Contents (Elt Ideal))

/-- The reference's minima over the target points are the source-to-target table read as `[4, 4096]`. -/
theorem ref_rows : Cert.ReferenceIdeal.Read.val_main_v13 (F := Ideal) x y
    = Cert.KernelIdeal.TailRead.reshape41 (F := Ideal) (Cert.Chamfer.s2tTable x y) := by
  funext i
  obtain ⟨b, n, rfl⟩ : ∃ (b : Fin 4) (n : Fin 4096), i = ix2 b n := ⟨i 0, i 1, eq_ix2 i⟩
  exact (Cert.ReferenceIdeal.RefValue.ref_s2t x y b n).trans
    ((Cert.KernelIdeal.TailRead.reshape41_apply (F := Ideal) (Cert.Chamfer.s2tTable x y) b n).trans
      (Cert.Chamfer.s2tTable_apply x y b n 0)).symm

/-- The reference's minima over the source points are the target-to-source table read as `[4, 4096]`. -/
theorem ref_cols : Cert.ReferenceIdeal.Read.val_main_v17 (F := Ideal) x y
    = Cert.KernelIdeal.TailRead.reshape41 (F := Ideal) (Cert.Chamfer.t2sTable x y) := by
  funext i
  obtain ⟨b, n, rfl⟩ : ∃ (b : Fin 4) (n : Fin 4096), i = ix2 b n := ⟨i 0, i 1, eq_ix2 i⟩
  exact (Cert.ReferenceIdeal.RefValue.ref_t2s x y b n).trans
    ((Cert.KernelIdeal.TailRead.reshape41_apply (F := Ideal) (Cert.Chamfer.t2sTable x y) b n).trans
      (Cert.Chamfer.t2sTable_apply x y b n 0)).symm

/-- The reference's result is the common tail applied to the two tables read as `[4, 4096]`. -/
theorem ref_result : Cert.ReferenceIdeal.Read.val_main_v23 (F := Ideal) x y
    = Cert.Chamfer.tail Cert.KernelIdeal.Gen.reducesTo_S4x4096_S4_d1 Cert.KernelIdeal.Gen.h_S_
        Cert.KernelIdeal.Gen.bcast_S_S4 Cert.KernelIdeal.Gen.reducesTo_S4_S_d0
        (Cert.KernelIdeal.TailRead.reshape41 (F := Ideal) (Cert.Chamfer.s2tTable x y))
        (Cert.KernelIdeal.TailRead.reshape41 (F := Ideal) (Cert.Chamfer.t2sTable x y)) := by
  have h : Cert.ReferenceIdeal.Read.val_main_v23 (F := Ideal) x y
      = Cert.Chamfer.tail Cert.ReferenceIdeal.Gen.reducesTo_S4x4096_S4_d1 Cert.ReferenceIdeal.Gen.h_S_
          Cert.ReferenceIdeal.Gen.bcast_S_S4 Cert.ReferenceIdeal.Gen.reducesTo_S4_S_d0
          (Cert.ReferenceIdeal.Read.val_main_v13 (F := Ideal) x y) (Cert.ReferenceIdeal.Read.val_main_v17 (F := Ideal) x y) := rfl
  rw [h, ref_rows, ref_cols]

end Cert.Proof.Bridge

end
-- ==== Proof.lean ====
/-
  The bidirectional chamfer distance of two clouds of 4 × 4096 points in three coordinates: a tiled kernel against
  the plain formula.

  Both programs expand the squared distance as (|x|² + |y|²) − 2·x·y, entry by entry with the same grouping, so at
  the ideal values the two distance tables agree entry for entry and no law of arithmetic beyond that is used.  The
  reference takes the minimum over all target points (per source point) and over all source points (per target
  point) in one reduction each.  The kernel takes the first tile by tile — each tile of 512 source points sees the
  whole target cloud, so its row minima are final — and the second as a running minimum joined across the eight tiles
  of a batch; since `min` is associative and commutative with +∞ neutral on the extended reals, joining the tiles'
  minima gives the minimum over all source points.  The host lines that follow (two means over the points, their sum,
  the mean over the batches) are the same term in both programs and are never opened.

  The three frames: the two kernels' by the body's run in its two cases (a batch's first tile, a later tile) under the
  pipeline's launch, the reference's from its run.  The idealization rewrote nothing, so `preserves` is trivial.
-/
import proofs.«124588_j30124900614424_1_alg».proof.Defs
import proofs.«124588_j30124900614424_1_alg».proof.Proof.Gen.Kernel
import proofs.«124588_j30124900614424_1_alg».proof.Proof.Gen.KernelIdeal
import proofs.«124588_j30124900614424_1_alg».proof.Proof.Gen.ReferenceIdeal
import proofs.«124588_j30124900614424_1_alg».proof.Proof.Gen.Pre_finite_inputs
import proofs.«124588_j30124900614424_1_alg».proof.Proof.Gen.ReferenceIdeal.Run
import proofs.«124588_j30124900614424_1_alg».proof.Proof.Gen.ReferenceIdeal.Read
import proofs.«124588_j30124900614424_1_alg».proof.Proof.BodyBits
import proofs.«124588_j30124900614424_1_alg».proof.Proof.KernelValue
import proofs.«124588_j30124900614424_1_alg».proof.Proof.Bridge
import Idealize.ShloMosaic.Adequacy
import Idealize.ShloMosaic.Init

noncomputable section

namespace Cert.Proof

open Idealize.ShloMosaic Idealize.SL.Sem

/-- The kernel as printed runs to the end, faults nowhere and leaves its arguments unchanged. -/
theorem frame_k : Cert.frame_Kernel := fun m ρ _ => Cert.Kernel.Body.frame m ρ
/-- So does its idealization. -/
theorem frame_ki : Cert.frame_KernelIdeal := fun m ρ _ => Cert.KernelIdeal.Body.frame m ρ
/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values the kernel ends at the host lines' term of the two tables of minima, and the reference's result
    is the same term of the same tables. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.Proof.Bridge.ref_result, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
